-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S2x128 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S2x128 .f32 := Host.absf main_arg16
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S2x128 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S2x128 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S128x2 : Shape := ⟨2, ![128, 2]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 95
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x128, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .bf16⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S50000x128, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .bf16⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S128x128, .f32⟩
  | .hbm, ⟨79, _⟩ => ⟨S128x128, .bf16⟩
  | .hbm, ⟨80, _⟩ => ⟨S128x128, .f32⟩
  | .hbm, ⟨81, _⟩ => ⟨S128x128, .bf16⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128x2, .f32⟩
  | .hbm, ⟨88, _⟩ => ⟨S128x2, .bf16⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x2, .f32⟩
  | .hbm, ⟨94, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x128, .bf16⟩
  | .local _ .vmem, ⟨17, _⟩ => ⟨S2000x128, .bf16⟩
  | .local _ .vmem, ⟨18, _⟩ => ⟨S2000x1, .f32⟩
  | .local _ .vmem, ⟨19, _⟩ => ⟨S2000x1, .f32⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x2, .bf16⟩
  | .local _ .vmem, ⟨27, _⟩ => ⟨S1x2, .f32⟩
  | .local _ .vmem, ⟨28, _⟩ => ⟨S2000x2, .f32⟩
  | .local _ .vmem, ⟨29, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x2 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x2 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .bf16 = 32 ∨ (Rect.block (s := S50000x128) S2000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x2.size a ≤ S128x2.size a
  hwx1_9 : ∀ i : grid1.Coords, EltTy.bits .bf16 = 32 ∨ (Rect.block (s := S128x2) S128x2.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2.size a ≤ S1x2.size a
  hwx1_10 : ∀ i : grid1.Coords, EltTy.bits .f32 = 32 ∨ (Rect.block (s := S1x2) S1x2.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x2.size a ≤ S50000x2.size a
  hwx1_11 : ∀ i : grid1.Coords, EltTy.bits .f32 = 32 ∨ (Rect.block (s := S50000x2) S2000x2.size (cc1_transform_11 i) (hinb1_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S128x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v63) S1x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v64) S2000x2.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x128, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S128x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S128x2, .f32⟩
  | .hbm, ⟨123, _⟩ => ⟨S50000x2, .f32⟩
  | .hbm, ⟨124, _⟩ => ⟨S1x2, .f32⟩
  | .hbm, ⟨125, _⟩ => ⟨S50000x2, .f32⟩
  | .hbm, ⟨126, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call1_cst : Ref sig .tc := ⟨.hbm, 119, rfl⟩
abbrev main_call1_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.RunNamed.lean ====
/-
  The kernel program's run with its result named.

  The program is four segments in order — a stretch of host operations, the first pallas_call, a second
  stretch, the second pallas_call — and the buffer contents at each boundary are a fold from the launch
  memory.  Every weakly fair execution from any memory with zero counters terminates without a fault, and in
  every final state each unscoped buffer holds the last boundary's contents: the result buffer is what the
  second pallas_call's write-backs leave, and every argument is as launched.
-/
import proofs.«161813_j51161650430634_2_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting; the result buffer ends at the
    last boundary's contents and the arguments as launched. -/
theorem run_named : θ_run defs (onTc (τ := τ) (main (F := F))) ⟨m, fun _ => 0, ρ⟩ (fun r => ∀ c : Dev nD,
      r.2.mem ((c.tc : Thread nD τ).loc main_v64) = W4 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v64 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.Sage.Run

end
-- ==== Proof.Spec.lean ====
/-
  A two-layer mean-aggregation graph network followed by a linear classifier, at the ideal values
  (floats extended reals, every operation exact): what one layer and the classifier compute at one entry.

  One layer, at node n and feature j: the node's aggregated neighbour row, scaled by a per-node factor,
  is multiplied into one weight matrix; the node's own row into another; a bias row is added; the result
  is shifted by a running mean, scaled, shifted again, and rectified (`bnRelu`).  The classifier is one
  more matrix product plus a bias row.

  The one algebraic law the two programs differ by: multiplying by the reciprocal 1/c of a divisor
  c = max(count, 1) is dividing by c.  The divisor is at least 1, hence not zero, and for a nonzero divisor
  the quotient of extended reals IS the product with the inverse; nothing is asked of the dividend, so no
  finiteness is used.
-/
import Idealize.ShloMosaic.PureOps.Ideal
import Idealize.ShloMosaic.Lib.ValueIdx

noncomputable section

namespace Cert.Sage

open Idealize.ShloMosaic Idealize.ShloMosaic.ValueIdx

/-- node features: 50000 nodes, 128 features each -/
abbrev NodeFeat : Shape := ⟨2, ![50000, 128]⟩
/-- one value per node, kept as a column -/
abbrev NodeCol : Shape := ⟨2, ![50000, 1]⟩
/-- a 128 × 128 weight matrix, laid out contraction-axis first -/
abbrev Weight : Shape := ⟨2, ![128, 128]⟩
/-- one value per feature, kept as a row -/
abbrev RowVec : Shape := ⟨2, ![1, 128]⟩
/-- the classifier's 128 × 2 weight matrix -/
abbrev HeadW : Shape := ⟨2, ![128, 2]⟩
/-- the classifier's bias, kept as a row -/
abbrev HeadB : Shape := ⟨2, ![1, 2]⟩
/-- two logits per node -/
abbrev Logits : Shape := ⟨2, ![50000, 2]⟩

/-- Shift by the mean, scale, shift, rectify: the tail of a layer at one entry. -/
def bnRelu (lin mean scale shift : EReal) : EReal := max ((lin - mean) * scale + shift) 0

/-- One layer at node `n`, feature `j`: (agg n · inv n) · WlT + x n · WrT + bias, then `bnRelu`. -/
def layerMulAt (A X : NodeFeat.Idx → EReal) (inv : NodeCol.Idx → EReal) (WlT WrT : Weight.Idx → EReal)
    (bl sc bs mm : RowVec.Idx → EReal) (n : Fin 50000) (j : Fin 128) : EReal :=
  bnRelu (((∑ k : Fin 128, (A (ix2 n k) * inv (ix2 n (0 : Fin 1))) * WlT (ix2 k j))
            + ∑ k : Fin 128, X (ix2 n k) * WrT (ix2 k j)) + bl (ix2 (0 : Fin 1) j))
    (mm (ix2 (0 : Fin 1) j)) (sc (ix2 (0 : Fin 1) j)) (bs (ix2 (0 : Fin 1) j))

/-- One layer as a whole array. -/
def layerMul (A X : NodeFeat.Idx → EReal) (inv : NodeCol.Idx → EReal) (WlT WrT : Weight.Idx → EReal)
    (bl sc bs mm : RowVec.Idx → EReal) : NodeFeat.Idx → EReal :=
  fun i => layerMulAt A X inv WlT WrT bl sc bs mm (i 0) (i 1)

theorem layerMul_ix2 (A X : NodeFeat.Idx → EReal) (inv : NodeCol.Idx → EReal) (WlT WrT : Weight.Idx → EReal)
    (bl sc bs mm : RowVec.Idx → EReal) (n : Fin 50000) (j : Fin 128) :
    layerMul A X inv WlT WrT bl sc bs mm (ix2 n j) = layerMulAt A X inv WlT WrT bl sc bs mm n j := rfl

/-- The classifier at node `n`, logit `j`: h n · W + bias. -/
def headAt (H : NodeFeat.Idx → EReal) (W : HeadW.Idx → EReal) (b : HeadB.Idx → EReal) (n : Fin 50000) (j : Fin 2) : EReal :=
  (∑ k : Fin 128, H (ix2 n k) * W (ix2 k j)) + b (ix2 (0 : Fin 1) j)

/-- The classifier as a whole array. -/
def head (H : NodeFeat.Idx → EReal) (W : HeadW.Idx → EReal) (b : HeadB.Idx → EReal) : Logits.Idx → EReal :=
  fun i => headAt H W b (i 0) (i 1)

theorem head_ix2 (H : NodeFeat.Idx → EReal) (W : HeadW.Idx → EReal) (b : HeadB.Idx → EReal) (n : Fin 50000) (j : Fin 2) :
    head H W b (ix2 n j) = headAt H W b n j := rfl

/-- A maximum with 1 is not zero. -/
theorem max_one_ne_zero (x : EReal) : max x 1 ≠ 0 := by
  have h : (0 : EReal) < max x 1 := lt_of_lt_of_le zero_lt_one (le_max_right x 1)
  exact ne_of_gt h

/-- Multiplying by the reciprocal of max(count, 1) is dividing by it, for every extended real dividend. -/
theorem mul_recip_eq_div (a cnt : EReal) : a * Ideal.div 1 (max cnt 1) = Ideal.div a (max cnt 1) := by
  have h := max_one_ne_zero cnt
  rw [Ideal.div, Ideal.div, if_neg h, if_neg h, one_mul]

end Cert.Sage

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibColumns.lean ====
/-
  One column broadcast over many, and a vector recast as a column.

  Two layout facts read at an index, for any extents: an array of shape [a, 1] (one value per row) broadcast to
  [a, b] reads at (p, c) the value of row p; and a vector of length a recast to shape [a, 1] reads at (p, 0) the
  vector's entry p.
-/
import Idealize.ShloMosaic.Lib.Pipeline.Value
import Idealize.ShloMosaic.Lib.ValueIdx

noncomputable section

namespace Cert.Lib.Columns

open Idealize.ShloMosaic Idealize.ShloMosaic.ValueIdx

variable {α : Type}

/-- An [a, 1] array broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a recast to shape [a, 1] reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

end Cert.Lib.Columns

end
-- ==== Proof.LayerBody.lean ====
/-
  One block of a layer, read at one entry.

  The body of a layer works on a block of 2000 node rows: the aggregated rows, each scaled by its node's
  factor (a column broadcast along the features), are multiplied into one 128 × 128 weight matrix, the
  nodes' own rows into another, both on the matrix unit into a zero accumulator; a bias row is added; a
  mean row is subtracted, a scale row multiplied in, a shift row added (each a row broadcast over the 2000
  rows); and the result is rectified against the constant 0.  At the ideal values — floats extended reals,
  every operation exact, a change of float format the identity — the entry at row p, feature q of what the
  body stores is therefore `bnRelu` of the two plain sums over the contraction axis plus the bias entry,
  with the mean, scale and shift entries of feature q.
-/
import proofs.«161813_j51161650430634_2_alg».proof.Proof.Gen.KernelIdeal.Skeleton
import proofs.«161813_j51161650430634_2_alg».proof.Proof.Spec
import proofs.«161813_j51161650430634_2_alg».proof.Proof.LibPlainDot
import proofs.«161813_j51161650430634_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Sage.R0

open Idealize.ShloMosaic Idealize.ShloMosaic.ValueIdx Cert.KernelIdeal Cert.KernelIdeal.Gen

/-- The dimension numbers of the block's two products are the plain ones: 2000 × 128 times 128 × 128,
    the left operand contracted on its last axis, the right on its first. -/
theorem dot_plain : dot_S2000x128_S128x128_S2000x128_1_0_0_1_n_n = DotDims.plain 2000 128 128 := rfl

/-- The float constant 0.0 is the extended real 0. -/
theorem zero_f32 : (FloatOps.ofBits .f32 0x00000000#32 : Ideal .f32) = 0 := by
  show Ideal.ofBits .f32 0x00000000#32 = 0
  exact Ideal.ofBits_zero_f32

/-- The first product at (p, q): the sum over k of (agg (p, k) · inv p) · WlT (k, q) — the column of node
    factors, broadcast along the features, reads at (p, k) the factor of row p. -/
theorem prod_scaled (v0 : FVec Ideal S2000x128 .f32) (v2 : FVec Ideal S2000x1 .f32) (v9 : FVec Ideal S128x128 .bf16) (p : Fin 2000) (q : Fin 128) :
    matmul dot_S2000x128_S128x128_S2000x128_1_0_0_1_n_n none
        (truncf .bf16 (mulf v0 (broadcastTo S2000x128 v2 Gen.broadcasts_S2000x1_S2000x128)) Gen.bitsLt_bf16_f32)
        v9 (constant (F := Ideal) S2000x128 .f32 0x00000000#32) (ix2 p q)
      = ∑ k : Fin 128, (v0 (ix2 p k) * v2 (ix2 p (0 : Fin 1))) * v9 (ix2 k q) := by
  rw [dot_plain]
  refine (Cert.Lib.PlainDot.matmul_plain_zero_apply none _ _ p q).trans ?_
  refine Finset.sum_congr rfl fun k _ => ?_
  show (v0 (ix2 p k) * broadcastTo S2000x128 v2 Gen.broadcasts_S2000x1_S2000x128 (ix2 p k)) * v9 (ix2 k q) = _
  rw [Cert.Lib.Columns.broadcastTo_a1_ab_apply]

/-- The second product at (p, q): the sum over k of x (p, k) · WrT (k, q). -/
theorem prod_plain (v7 : FVec Ideal S2000x128 .bf16) (v12 : FVec Ideal S128x128 .bf16) (p : Fin 2000) (q : Fin 128) :
    matmul dot_S2000x128_S128x128_S2000x128_1_0_0_1_n_n none v7 v12 (constant (F := Ideal) S2000x128 .f32 0x00000000#32) (ix2 p q)
      = ∑ k : Fin 128, v7 (ix2 p k) * v12 (ix2 k q) := by
  rw [dot_plain]
  exact Cert.Lib.PlainDot.matmul_plain_zero_apply none _ _ p q

/-- What the body stores, at row p and feature q of the block, from the blocks it loads: the aggregated rows
    `v0`, the column of node factors `v2`, the nodes' own rows `v7`, the two weight matrices `v9`, `v12`, and the
    bias, mean, scale and shift rows `v16`, `v20`, `v24`, `v28`. -/
theorem layer_pay (v0 : Vec Ideal S2000x128 .f32) (v2 : Vec Ideal S2000x1 .f32) (v7 : Vec Ideal S2000x128 .bf16) (v9 v12 : Vec Ideal S128x128 .bf16) (v16 v20 v24 v28 : Vec Ideal S1x128 .f32) (p : Fin 2000) (q : Fin 128) :
    Cert.KernelIdeal.Gen.k0_pay1 (F := Ideal) v0 v2 v7 v9 v12 v16 v20 v24 v28 (ix2 p q)
      = Cert.Sage.bnRelu (((∑ k : Fin 128, (v0 (ix2 p k) * v2 (ix2 p (0 : Fin 1))) * v9 (ix2 k q)) + ∑ k : Fin 128, v7 (ix2 p k) * v12 (ix2 k q)) + v16 (ix2 (0 : Fin 1) q)) (v20 (ix2 (0 : Fin 1) q)) (v24 (ix2 (0 : Fin 1) q)) (v28 (ix2 (0 : Fin 1) q)) := by
  unfold Cert.KernelIdeal.Gen.k0_pay1
  simp only [shapeCast_self]
  simp only [truncf_apply, maximumf_apply, addf_apply, mulf_apply, subf_apply, broadcast_apply]
  rw [prod_scaled, prod_plain, broadcastTo_1b_ab_apply, broadcastTo_1b_ab_apply, broadcastTo_1b_ab_apply, broadcastTo_1b_ab_apply, zero_f32]
  rfl

end Cert.Sage.R0

end
-- ==== Proof.Region0.lean ====
/-
  The first region's output array, as one function of the arrays the region finds.

  The region runs the layer body at 25 grid points.  At point t the three row-blocked inputs (the aggregated
  rows, the nodes' own rows, the column of node factors) are staged at their block of rows t·2000 … t·2000 + 1999,
  the six parameter arrays (two weight matrices; bias, scale, shift and mean rows) whole, and the body's result
  is written back to rows t·2000 … t·2000 + 1999 of the output.  Row p of block t is row t·2000 + p of a whole
  array, so what point t writes back is block t of the layer `layerMul` computed on the whole arrays; the 25
  blocks cover the 50000 rows (row r lies in block r / 2000), so after the region the output array is that layer.
  Nothing is asked of the arrays' entries: the statement is generic in the contents `V` the region is entered with.
-/
import proofs.«161813_j51161650430634_2_alg».proof.Proof.Gen.KernelIdeal.Frame
import proofs.«161813_j51161650430634_2_alg».proof.Proof.LayerBody
import Idealize.ShloMosaic.Lib.Pipeline.Value

noncomputable section

namespace Cert.Sage.R0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset (0, 0). -/
theorem hz : (![0, 0] : Fin 2 → Nat) = fun _ => 0 := funext fun a => by fin_cases a <;> rfl

/-- The windows' index maps, decided once over the 25 grid points: the three row-blocked inputs and the output
    are at block (t, 0); the six parameter arrays are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The grid has 25 points. -/
theorem lt_N (t : Fin cfg0.N) : t.val < 25 := Nat.lt_of_lt_of_eq t.isLt (N_0 : cfg0.N = 25)

/-- The row of the whole array that row p of block t is. -/
def row (t : Fin cfg0.N) (p : Fin 2000) : Fin 50000 := ⟨t.val * 2000 + p.val, by have := lt_N t; have := p.isLt; omega⟩

/-- Row p of point t's block of the aggregated rows is row t·2000 + p of the whole array. -/
theorem blk0 (c : Dev nD) (t : Fin cfg0.N) (p : Fin 2000) (k : Fin 128) :
    (iblk0 V c 0 t : Vec Ideal S2000x128 .f32) (ix2 p k) = (V c main_v24 : S50000x128.Idx → EReal) (ix2 (row t p) k) := by
  obtain ⟨e0, e1⟩ := (idx_facts t).1
  unfold iblk0
  rw [View.read_apply]
  show V c main_v24 _ = V c main_v24 _
  refine congrArg (V c main_v24) ?_
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Row p of point t's block of the nodes' own rows is row t·2000 + p of the whole array. -/
theorem blk1 (c : Dev nD) (t : Fin cfg0.N) (p : Fin 2000) (k : Fin 128) :
    (iblk0 V c 1 t : Vec Ideal S2000x128 .bf16) (ix2 p k) = (V c main_v13 : S50000x128.Idx → EReal) (ix2 (row t p) k) := by
  obtain ⟨e0, e1⟩ := (idx_facts t).2.1
  unfold iblk0
  rw [View.read_apply]
  show V c main_v13 _ = V c main_v13 _
  refine congrArg (V c main_v13) ?_
  funext a
  apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Entry p of point t's block of the column of node factors is entry t·2000 + p of the whole column. -/
theorem blk2 (c : Dev nD) (t : Fin cfg0.N) (p : Fin 2000) (k : Fin 1) :
    (iblk0 V c 2 t : Vec Ideal S2000x1 .f32) (ix2 p k) = (V c main_v12 : S50000x1.Idx → EReal) (ix2 (row t p) k) := by
  obtain ⟨e0, e1⟩ := (idx_facts t).2.2.1
  unfold iblk0
  rw [View.read_apply]
  show V c main_v12 _ = V c main_v12 _
  refine congrArg (V c main_v12) ?_
  funext a
  apply Fin.ext
  match a with
  | ⟨0, _⟩ => show win0_2.index t (0 : Fin 2) * 2000 + 1 * p.val = t.val * 2000 + p.val; rw [e0]; omega
  | ⟨1, _⟩ => show win0_2.index t (1 : Fin 2) * 1 + 1 * k.val = k.val; rw [e1]; omega

/-- The first weight matrix is staged whole: its one block is the array. -/
theorem blk3 (c : Dev nD) (t : Fin cfg0.N) (a : Fin 128) (b : Fin 128) :
    (iblk0 V c 3 t : Vec Ideal S128x128 .bf16) (ix2 a b) = (V c main_v26 : S128x128.Idx → EReal) (ix2 a b) := by
  obtain ⟨e0, e1⟩ := (idx_facts t).2.2.2.1
  unfold iblk0
  rw [View.read_apply]
  show V c main_v26 _ = V c main_v26 _
  refine congrArg (V c main_v26) ?_
  funext x
  apply Fin.ext
  match x with
  | ⟨0, _⟩ => show win0_3.index t (0 : Fin 2) * 128 + 1 * a.val = a.val; rw [e0]; omega
  | ⟨1, _⟩ => show win0_3.index t (1 : Fin 2) * 128 + 1 * b.val = b.val; rw [e1]; omega

/-- The second weight matrix is staged whole: its one block is the array. -/
theorem blk4 (c : Dev nD) (t : Fin cfg0.N) (a : Fin 128) (b : Fin 128) :
    (iblk0 V c 4 t : Vec Ideal S128x128 .bf16) (ix2 a b) = (V c main_v28 : S128x128.Idx → EReal) (ix2 a b) := by
  obtain ⟨e0, e1⟩ := (idx_facts t).2.2.2.2.1
  unfold iblk0
  rw [View.read_apply]
  show V c main_v28 _ = V c main_v28 _
  refine congrArg (V c main_v28) ?_
  funext x
  apply Fin.ext
  match x with
  | ⟨0, _⟩ => show win0_4.index t (0 : Fin 2) * 128 + 1 * a.val = a.val; rw [e0]; omega
  | ⟨1, _⟩ => show win0_4.index t (1 : Fin 2) * 128 + 1 * b.val = b.val; rw [e1]; omega

/-- The bias row is staged whole. -/
theorem blk5 (c : Dev nD) (t : Fin cfg0.N) (a : Fin 1) (b : Fin 128) :
    (iblk0 V c 5 t : Vec Ideal S1x128 .f32) (ix2 a b) = (V c main_v33 : S1x128.Idx → EReal) (ix2 a b) := by
  obtain ⟨e0, e1⟩ := (idx_facts t).2.2.2.2.2.1
  unfold iblk0
  rw [View.read_apply]
  show V c main_v33 _ = V c main_v33 _
  refine congrArg (V c main_v33) ?_
  funext x
  apply Fin.ext
  match x with
  | ⟨0, _⟩ => show win0_5.index t (0 : Fin 2) * 1 + 1 * a.val = a.val; rw [e0]; omega
  | ⟨1, _⟩ => show win0_5.index t (1 : Fin 2) * 128 + 1 * b.val = b.val; rw [e1]; omega

/-- The scale row is staged whole. -/
theorem blk6 (c : Dev nD) (t : Fin cfg0.N) (a : Fin 1) (b : Fin 128) :
    (iblk0 V c 6 t : Vec Ideal S1x128 .f32) (ix2 a b) = (V c main_v34 : S1x128.Idx → EReal) (ix2 a b) := by
  obtain ⟨e0, e1⟩ := (idx_facts t).2.2.2.2.2.2.1
  unfold iblk0
  rw [View.read_apply]
  show V c main_v34 _ = V c main_v34 _
  refine congrArg (V c main_v34) ?_
  funext x
  apply Fin.ext
  match x with
  | ⟨0, _⟩ => show win0_6.index t (0 : Fin 2) * 1 + 1 * a.val = a.val; rw [e0]; omega
  | ⟨1, _⟩ => show win0_6.index t (1 : Fin 2) * 128 + 1 * b.val = b.val; rw [e1]; omega

/-- The shift row is staged whole. -/
theorem blk7 (c : Dev nD) (t : Fin cfg0.N) (a : Fin 1) (b : Fin 128) :
    (iblk0 V c 7 t : Vec Ideal S1x128 .f32) (ix2 a b) = (V c main_v35 : S1x128.Idx → EReal) (ix2 a b) := by
  obtain ⟨e0, e1⟩ := (idx_facts t).2.2.2.2.2.2.2.1
  unfold iblk0
  rw [View.read_apply]
  show V c main_v35 _ = V c main_v35 _
  refine congrArg (V c main_v35) ?_
  funext x
  apply Fin.ext
  match x with
  | ⟨0, _⟩ => show win0_7.index t (0 : Fin 2) * 1 + 1 * a.val = a.val; rw [e0]; omega
  | ⟨1, _⟩ => show win0_7.index t (1 : Fin 2) * 128 + 1 * b.val = b.val; rw [e1]; omega

/-- The mean row is staged whole. -/
theorem blk8 (c : Dev nD) (t : Fin cfg0.N) (a : Fin 1) (b : Fin 128) :
    (iblk0 V c 8 t : Vec Ideal S1x128 .f32) (ix2 a b) = (V c main_v36 : S1x128.Idx → EReal) (ix2 a b) := by
  obtain ⟨e0, e1⟩ := (idx_facts t).2.2.2.2.2.2.2.2.1
  unfold iblk0
  rw [View.read_apply]
  show V c main_v36 _ = V c main_v36 _
  refine congrArg (V c main_v36) ?_
  funext x
  apply Fin.ext
  match x with
  | ⟨0, _⟩ => show win0_8.index t (0 : Fin 2) * 1 + 1 * a.val = a.val; rw [e0]; omega
  | ⟨1, _⟩ => show win0_8.index t (1 : Fin 2) * 128 + 1 * b.val = b.val; rw [e1]; omega

/-- The layer over the whole arrays the region finds. -/
abbrev G (c : Dev nD) : S50000x128.Idx → EReal :=
  Cert.Sage.layerMul (V c main_v24) (V c main_v13) (V c main_v12) (V c main_v26) (V c main_v28) (V c main_v33) (V c main_v34) (V c main_v35) (V c main_v36)

/-- Entry (p, q) of point t's block of the output is entry (t·2000 + p, q) of the whole array. -/
theorem emb9 (t : Fin cfg0.N) (p : Fin 2000) (q : Fin 128) :
    (((cfg0.win 9).blk t).view.emb (ix2 p q) : S50000x128.Idx) = ix2 (row t p) q := by
  obtain ⟨e0, e1⟩ := (idx_facts t).2.2.2.2.2.2.2.2.2
  funext a
  apply Fin.ext
  match a with
  | ⟨0, _⟩ => show win0_9.index t (0 : Fin 2) * 2000 + 1 * p.val = t.val * 2000 + p.val; rw [e0]; omega
  | ⟨1, _⟩ => show win0_9.index t (1 : Fin 2) * 128 + 1 * q.val = q.val; rw [e1]; omega

/-- What point t writes back is block t of the layer of the whole arrays: the body's entry at (p, q) is `bnRelu` of
    the two sums over the contraction axis of the blocks' rows, and each block entry is the whole array's entry at
    row t·2000 + p (the row-blocked inputs) or at the same place (the parameters). -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (iblk0 V c 8 t) (iblk0 V c 6 t) (iblk0 V c 7 t) (ix2 p q)
      = G V c (((cfg0.win 9).blk t).view.emb (ix2 p q))
  rw [emb9]
  refine (layer_pay (iblk0 V c 0 t) (iblk0 V c 2 t) (iblk0 V c 1 t) (iblk0 V c 3 t) (iblk0 V c 4 t) (iblk0 V c 5 t) (iblk0 V c 8 t) (iblk0 V c 6 t) (iblk0 V c 7 t) p q).trans ?_
  simp only [blk0 V c t, blk1 V c t, blk2 V c t, blk3 V c t, blk4 V c t, blk5 V c t, blk6 V c t, blk7 V c t, blk8 V c t]
  rfl

/-- An index of the array is in point t's block iff each coordinate is in the block's range on its axis. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v37).slice (win0_9.rect t)).set ↔ _
  rw [View.set_slice_whole, Rect.mem_set_unit]
  exact Iff.rfl

/-- Every row is in the block of the point its number divided by 2000 names. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_9 _, ?_⟩
  rw [mem_blk]
  obtain ⟨e0, e1⟩ := (idx_facts ⟨(i 0).val / 2000, by rw [hN]; omega⟩).2.2.2.2.2.2.2.2.2
  intro a
  match a with
  | ⟨0, _⟩ =>
    show win0_9.index _ (0 : Fin 2) * 2000 ≤ (i 0).val ∧ (i 0).val < win0_9.index _ (0 : Fin 2) * 2000 + 2000
    rw [e0]
    show (i 0).val / 2000 * 2000 ≤ (i 0).val ∧ (i 0).val < (i 0).val / 2000 * 2000 + 2000
    omega
  | ⟨1, _⟩ =>
    show win0_9.index _ (1 : Fin 2) * 128 ≤ (i 1).val ∧ (i 1).val < win0_9.index _ (1 : Fin 2) * 128 + 128
    rw [e1]
    omega

/-- The first region's output array, after the region, is the layer of the arrays the region found. -/
theorem final0 (c : Dev nD) :
    (dat0 (F := Ideal) V c).arrAt 9 cfg0.N
      = Cert.Sage.layerMul (V c main_v24) (V c main_v13) (V c main_v12) (V c main_v26) (V c main_v28) (V c main_v33) (V c main_v34) (V c main_v35) (V c main_v36) :=
  (dat0 (F := Ideal) V c).arrAt_eq_of_cover 9 (G V c) (fun t _ => flushed_eq V c t) cover

end Cert.Sage.R0

end
-- ==== Proof.HeadBody.lean ====
/-
  What the classifier region's body computes at one entry of its block, at the ideal values (floats
  extended reals, every operation exact, changes of float format the identity).

  The body works on a block of 2000 node rows.  Its first part is one layer of the network: the block of
  aggregated neighbour rows, each row scaled by its node's factor, is multiplied into one 128 × 128 weight
  matrix; the block of the nodes' own rows into another; a bias row is added; the result is shifted by a
  mean row, scaled, shifted again and rectified.  Read at (p, q) — local row p, feature q — the two matrix
  products are plain sums over the 128 contraction positions, the rows broadcast over the block read their
  entry q, and the column of factors broadcast over the features reads its entry p.  Its second part is the
  classifier: the layer's block times a 128 × 2 matrix plus a bias row, read at (p, j) a sum over the 128
  features plus the bias entry j.
-/
import proofs.«161813_j51161650430634_2_alg».proof.Proof.Gen.KernelIdeal.Skeleton
import proofs.«161813_j51161650430634_2_alg».proof.Proof.Spec
import proofs.«161813_j51161650430634_2_alg».proof.Proof.LibPlainDot
import proofs.«161813_j51161650430634_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Idealize.ShloMosaic Idealize.ShloMosaic.ValueIdx Cert.KernelIdeal Cert.KernelIdeal.Gen

/-- The layer part of the body at local row p, feature q: with a the block of aggregated rows, s the column
    of per-node factors, x the block of own rows, wl and wr the two weight matrices, b the bias row and
    mean, scale, shift the normalisation rows, it is
    max (((Σₖ (a p k · s p) · wl k q + Σₖ x p k · wr k q + b q) − mean q) · scale q + shift q) 0. -/
theorem layer_pay1 (v0 : Vec Ideal S2000x128 .f32) (v2 : Vec Ideal S2000x1 .f32) (v7 : Vec Ideal S2000x128 .bf16)
    (v9 v12 : Vec Ideal S128x128 .bf16) (v16 v20 v24 v28 : Vec Ideal S1x128 .f32) (p : Fin 2000) (q : Fin 128) :
    k1_pay2 (F := Ideal) v0 v2 v7 v9 v12 v16 v20 v24 v28 (ix2 p q)
      = Cert.Sage.bnRelu (((∑ k : Fin 128, (v0 (ix2 p k) * v2 (ix2 p (0 : Fin 1))) * v9 (ix2 k q))
            + ∑ k : Fin 128, v7 (ix2 p k) * v12 (ix2 k q)) + v16 (ix2 (0 : Fin 1) q))
          (v20 (ix2 (0 : Fin 1) q)) (v24 (ix2 (0 : Fin 1) q)) (v28 (ix2 (0 : Fin 1) q)) := by
  unfold k1_pay2 Cert.Sage.bnRelu
  simp only [shapeCast_self]
  -- outermost first: the rectification against the zero scalar, then shift, scale, mean, bias
  refine congrArg₂ (fun a b : EReal => max a b) ?_ Ideal.ofBits_zero_f32
  refine congrArg₂ (fun a b : EReal => a + b) ?_ (broadcastTo_1b_ab_apply v28 _ p q)
  refine congrArg₂ (fun a b : EReal => a * b) ?_ (broadcastTo_1b_ab_apply v24 _ p q)
  refine congrArg₂ (fun a b : EReal => a - b) ?_ (broadcastTo_1b_ab_apply v20 _ p q)
  refine congrArg₂ (fun a b : EReal => a + b) ?_ (broadcastTo_1b_ab_apply v16 _ p q)
  -- the two matrix products
  refine congrArg₂ (fun a b : EReal => a + b) ?_ ?_
  · refine (Cert.Lib.PlainDot.matmul_plain_zero_apply (φ₁ := .bf16) (φ₂ := .bf16) none
      (truncf .bf16 (mulf v0 (broadcastTo S2000x128 v2 broadcasts_S2000x1_S2000x128)) bitsLt_bf16_f32) v9 p q).trans ?_
    refine Finset.sum_congr rfl fun k _ => ?_
    refine congrArg (fun a : EReal => a * v9 (ix2 k q)) ?_
    -- the scaled aggregated row: the column of factors read at (p, k) is the factor of row p
    exact congrArg (fun a : EReal => v0 (ix2 p k) * a) (Cert.Lib.Columns.broadcastTo_a1_ab_apply v2 _ p k)
  · exact Cert.Lib.PlainDot.matmul_plain_zero_apply (φ₁ := .bf16) (φ₂ := .bf16) none v7 v12 p q

/-- The classifier part of the body at local row p, logit j: Σₖ h p k · w k j + b j. -/
theorem head_pay (h : FVec Ideal S2000x128 .bf16) (w : Vec Ideal S128x2 .bf16) (b : Vec Ideal S1x2 .f32)
    (p : Fin 2000) (j : Fin 2) :
    k1_pay1 (F := Ideal) h w b (ix2 p j) = (∑ k : Fin 128, h (ix2 p k) * w (ix2 k j)) + b (ix2 (0 : Fin 1) j) := by
  unfold k1_pay1
  simp only [shapeCast_self]
  refine congrArg₂ (fun a b : EReal => a + b) ?_ ?_
  · exact Cert.Lib.PlainDot.matmul_plain_zero_apply (φ₁ := .bf16) (φ₂ := .bf16) none h w p j
  · exact broadcastTo_1b_ab_apply b _ p j

end Cert.Sage.Body

end
-- ==== Proof.Region1.lean ====
/-
  The second region of the network — the second layer followed by the classifier — as one function of the
  arrays the region finds, at the ideal values (floats extended reals, every operation exact).

  The region runs over 25 grid points.  At point t its body is handed rows t · 2000 … t · 2000 + 1999 of
  three per-node arrays (the aggregated neighbour rows, the nodes' own rows, the column of per-node factors)
  and, whole, the two 128 × 128 weight matrices, the bias, scale, shift and mean rows, and the classifier's
  128 × 2 matrix and bias row; it writes rows t · 2000 … t · 2000 + 1999 of the [50000, 2] array of logits.

  Since every entry of the body's block depends only on its own row of the three per-node blocks and on the
  whole parameter arrays, the block written at point t is the restriction to its rows of ONE function of
  the whole arrays: logits (n, j) = Σₖ h (n, k) · W (k, j) + b j, where h = the layer
  max (((Σₖ (A (n, k) · inv n) · WlT (k, q) + Σₖ X (n, k) · WrT (k, q) + bl q) − mm q) · sc q + bs q) 0.
  Row n lies in the block of point n / 2000, so the 25 blocks cover the array, and after the last point the
  array holds that function.  Nothing is assumed of the arrays' contents: no finiteness is used.
-/
import proofs.«161813_j51161650430634_2_alg».proof.Proof.Gen.KernelIdeal.Frame
import proofs.«161813_j51161650430634_2_alg».proof.Proof.HeadBody
import Idealize.ShloMosaic.Lib.Pipeline.Value
import Idealize.ShloMosaic.Lib.Tactic

noncomputable section

namespace Cert.Sage.R1

open Idealize.ShloMosaic Idealize.ShloMosaic.TcCoe Idealize.ShloMosaic.ValueIdx Idealize.SL.Sem
open Idealize.ShloMosaic.Pipeline (Dat)
open Cert.KernelIdeal Cert.KernelIdeal.Gen Cert.Sage Cert.Sage.Body

/-- The body at local row p, logit j, when its blocks hold the rows of the whole arrays that row r is
    made of (row p of each per-node block is row r of its array; each parameter block is its whole array):
    the classifier of the layer at (r, j). -/
theorem body_at (x0 : Vec Ideal S2000x128 .f32) (x1 : Vec Ideal S2000x128 .bf16) (x2 : Vec Ideal S2000x1 .f32)
    (x3 x4 : Vec Ideal S128x128 .bf16) (x5 x6 x7 x8 : Vec Ideal S1x128 .f32) (x9 : Vec Ideal S128x2 .bf16)
    (x10 : Vec Ideal S1x2 .f32)
    (A X : NodeFeat.Idx → EReal) (inv : NodeCol.Idx → EReal) (WlT WrT : Weight.Idx → EReal)
    (bl sc bs mm : RowVec.Idx → EReal) (W : HeadW.Idx → EReal) (b : HeadB.Idx → EReal)
    (p : Fin 2000) (j : Fin 2) (r : Fin 50000)
    (h0 : ∀ k : Fin 128, x0 (ix2 p k) = A (ix2 r k))
    (h1 : ∀ k : Fin 128, x1 (ix2 p k) = X (ix2 r k))
    (h2 : x2 (ix2 p (0 : Fin 1)) = inv (ix2 r (0 : Fin 1)))
    (h3 : ∀ k q : Fin 128, x3 (ix2 k q) = WlT (ix2 k q))
    (h4 : ∀ k q : Fin 128, x4 (ix2 k q) = WrT (ix2 k q))
    (h5 : ∀ q : Fin 128, x5 (ix2 (0 : Fin 1) q) = bl (ix2 (0 : Fin 1) q))
    (h6 : ∀ q : Fin 128, x6 (ix2 (0 : Fin 1) q) = sc (ix2 (0 : Fin 1) q))
    (h7 : ∀ q : Fin 128, x7 (ix2 (0 : Fin 1) q) = bs (ix2 (0 : Fin 1) q))
    (h8 : ∀ q : Fin 128, x8 (ix2 (0 : Fin 1) q) = mm (ix2 (0 : Fin 1) q))
    (h9 : ∀ (k : Fin 128) (i : Fin 2), x9 (ix2 k i) = W (ix2 k i))
    (h10 : ∀ i : Fin 2, x10 (ix2 (0 : Fin 1) i) = b (ix2 (0 : Fin 1) i)) :
    k1_pay1 (F := Ideal) (k1_pay2 (F := Ideal) x0 x2 x1 x3 x4 x5 x8 x6 x7) x9 x10 (ix2 p j)
      = head (layerMul A X inv WlT WrT bl sc bs mm) W b (ix2 r j) := by
  refine (head_pay _ x9 x10 p j).trans ?_
  refine congrArg₂ (fun a b : EReal => a + b)
    (Finset.sum_congr rfl fun k _ => congrArg₂ (fun a b : EReal => a * b) ?_ (h9 k j)) (h10 j)
  refine (layer_pay1 x0 x2 x1 x3 x4 x5 x8 x6 x7 p k).trans ?_
  show _ = layerMulAt A X inv WlT WrT bl sc bs mm r k
  unfold layerMulAt
  rw [h2, h5 k, h6 k, h7 k, h8 k]
  simp only [h0, h1, h3, h4]

/-! ## The windows' block indices, decided once over the 25 grid points -/

/-- Window 0 (the aggregated neighbour rows): at grid point t its block index is (t, 0). -/
theorem idx1_0 : ∀ t : Fin cfg1.N, win1_0.index t (0 : Fin 2) = t.val ∧ win1_0.index t (1 : Fin 2) = 0 :=
  (by decide +kernel : ∀ t : Fin grid1.N, _)
/-- Window 1 (the nodes' own rows): at grid point t its block index is (t, 0). -/
theorem idx1_1 : ∀ t : Fin cfg1.N, win1_1.index t (0 : Fin 2) = t.val ∧ win1_1.index t (1 : Fin 2) = 0 :=
  (by decide +kernel : ∀ t : Fin grid1.N, _)
/-- Window 2 (the column of per-node factors): at grid point t its block index is (t, 0). -/
theorem idx1_2 : ∀ t : Fin cfg1.N, win1_2.index t (0 : Fin 2) = t.val ∧ win1_2.index t (1 : Fin 2) = 0 :=
  (by decide +kernel : ∀ t : Fin grid1.N, _)
/-- Window 3 (the weight matrix of the aggregated rows): at grid point t its block index is (0, 0). -/
theorem idx1_3 : ∀ t : Fin cfg1.N, win1_3.index t (0 : Fin 2) = 0 ∧ win1_3.index t (1 : Fin 2) = 0 :=
  (by decide +kernel : ∀ t : Fin grid1.N, _)
/-- Window 4 (the weight matrix of the own rows): at grid point t its block index is (0, 0). -/
theorem idx1_4 : ∀ t : Fin cfg1.N, win1_4.index t (0 : Fin 2) = 0 ∧ win1_4.index t (1 : Fin 2) = 0 :=
  (by decide +kernel : ∀ t : Fin grid1.N, _)
/-- Window 5 (the bias row): at grid point t its block index is (0, 0). -/
theorem idx1_5 : ∀ t : Fin cfg1.N, win1_5.index t (0 : Fin 2) = 0 ∧ win1_5.index t (1 : Fin 2) = 0 :=
  (by decide +kernel : ∀ t : Fin grid1.N, _)
/-- Window 6 (the scale row): at grid point t its block index is (0, 0). -/
theorem idx1_6 : ∀ t : Fin cfg1.N, win1_6.index t (0 : Fin 2) = 0 ∧ win1_6.index t (1 : Fin 2) = 0 :=
  (by decide +kernel : ∀ t : Fin grid1.N, _)
/-- Window 7 (the shift row): at grid point t its block index is (0, 0). -/
theorem idx1_7 : ∀ t : Fin cfg1.N, win1_7.index t (0 : Fin 2) = 0 ∧ win1_7.index t (1 : Fin 2) = 0 :=
  (by decide +kernel : ∀ t : Fin grid1.N, _)
/-- Window 8 (the mean row): at grid point t its block index is (0, 0). -/
theorem idx1_8 : ∀ t : Fin cfg1.N, win1_8.index t (0 : Fin 2) = 0 ∧ win1_8.index t (1 : Fin 2) = 0 :=
  (by decide +kernel : ∀ t : Fin grid1.N, _)
/-- Window 9 (the classifier's weight matrix): at grid point t its block index is (0, 0). -/
theorem idx1_9 : ∀ t : Fin cfg1.N, win1_9.index t (0 : Fin 2) = 0 ∧ win1_9.index t (1 : Fin 2) = 0 :=
  (by decide +kernel : ∀ t : Fin grid1.N, _)
/-- Window 10 (the classifier's bias row): at grid point t its block index is (0, 0). -/
theorem idx1_10 : ∀ t : Fin cfg1.N, win1_10.index t (0 : Fin 2) = 0 ∧ win1_10.index t (1 : Fin 2) = 0 :=
  (by decide +kernel : ∀ t : Fin grid1.N, _)
/-- Window 11 (the logits): at grid point t its block index is (t, 0). -/
theorem idx1_11 : ∀ t : Fin cfg1.N, win1_11.index t (0 : Fin 2) = t.val ∧ win1_11.index t (1 : Fin 2) = 0 :=
  (by decide +kernel : ∀ t : Fin grid1.N, _)

/-! ## Each input block as rows of its array -/

variable (V : (c : Dev nD) → (b : Ref sig .tc) → Buf (Elt Ideal) ((c : Thread nD τ).loc b))

/-- The block of the aggregated neighbour rows at grid point t, read at its local (p, k), is the whole array's entry
    (t · 2000 + p, k). -/
theorem blk0 (c : Dev nD) (t : Fin cfg1.N) (p : Fin 2000) (k : Fin 128) (r : Fin 50000) (hr : r.val = t.val * 2000 + p.val) :
    (iblk1 V c 0 t : Vec Ideal S2000x128 .f32) (ix2 p k) = (V c main_v48 : S50000x128.Idx → EReal) (ix2 r k) := by
  obtain ⟨e0, e1⟩ := idx1_0 t
  unfold iblk1
  rw [View.read_apply]
  show V c main_v48 _ = V c main_v48 _
  refine congrArg (V c main_v48) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The block of the nodes' own rows at grid point t, read at its local (p, k), is the whole array's entry
    (t · 2000 + p, k). -/
theorem blk1 (c : Dev nD) (t : Fin cfg1.N) (p : Fin 2000) (k : Fin 128) (r : Fin 50000) (hr : r.val = t.val * 2000 + p.val) :
    (iblk1 V c 1 t : Vec Ideal S2000x128 .bf16) (ix2 p k) = (V c main_v37 : S50000x128.Idx → EReal) (ix2 r k) := by
  obtain ⟨e0, e1⟩ := idx1_1 t
  unfold iblk1
  rw [View.read_apply]
  show V c main_v37 _ = V c main_v37 _
  refine congrArg (V c main_v37) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The block of the column of per-node factors at grid point t, read at its local (p, k), is the whole array's entry
    (t · 2000 + p, k). -/
theorem blk2 (c : Dev nD) (t : Fin cfg1.N) (p : Fin 2000) (k : Fin 1) (r : Fin 50000) (hr : r.val = t.val * 2000 + p.val) :
    (iblk1 V c 2 t : Vec Ideal S2000x1 .f32) (ix2 p k) = (V c main_v12 : S50000x1.Idx → EReal) (ix2 r k) := by
  obtain ⟨e0, e1⟩ := idx1_2 t
  unfold iblk1
  rw [View.read_apply]
  show V c main_v12 _ = V c main_v12 _
  refine congrArg (V c main_v12) (funext fun a => Fin.ext ?_)
  match a with
  | ⟨0, _⟩ => show win1_2.index t (0 : Fin 2) * 2000 + 1 * p.val = r.val; rw [e0, hr]; omega
  | ⟨1, _⟩ => show win1_2.index t (1 : Fin 2) * 1 + 1 * k.val = k.val; rw [e1]; omega

/-- The one block of the weight matrix of the aggregated rows is the whole array, at every grid point. -/
theorem blk3 (c : Dev nD) (t : Fin cfg1.N) (p : Fin 128) (k : Fin 128) :
    (iblk1 V c 3 t : Vec Ideal S128x128 .bf16) (ix2 p k) = (V c main_v50 : S128x128.Idx → EReal) (ix2 p k) := by
  obtain ⟨e0, e1⟩ := idx1_3 t
  unfold iblk1
  rw [View.read_apply]
  show V c main_v50 _ = V c main_v50 _
  refine congrArg (V c main_v50) (funext fun a => Fin.ext ?_)
  match a with
  | ⟨0, _⟩ => show win1_3.index t (0 : Fin 2) * 128 + 1 * p.val = p.val; rw [e0]; omega
  | ⟨1, _⟩ => show win1_3.index t (1 : Fin 2) * 128 + 1 * k.val = k.val; rw [e1]; omega

/-- The one block of the weight matrix of the own rows is the whole array, at every grid point. -/
theorem blk4 (c : Dev nD) (t : Fin cfg1.N) (p : Fin 128) (k : Fin 128) :
    (iblk1 V c 4 t : Vec Ideal S128x128 .bf16) (ix2 p k) = (V c main_v52 : S128x128.Idx → EReal) (ix2 p k) := by
  obtain ⟨e0, e1⟩ := idx1_4 t
  unfold iblk1
  rw [View.read_apply]
  show V c main_v52 _ = V c main_v52 _
  refine congrArg (V c main_v52) (funext fun a => Fin.ext ?_)
  match a with
  | ⟨0, _⟩ => show win1_4.index t (0 : Fin 2) * 128 + 1 * p.val = p.val; rw [e0]; omega
  | ⟨1, _⟩ => show win1_4.index t (1 : Fin 2) * 128 + 1 * k.val = k.val; rw [e1]; omega

/-- The one block of the bias row is the whole array, at every grid point. -/
theorem blk5 (c : Dev nD) (t : Fin cfg1.N) (p : Fin 1) (k : Fin 128) :
    (iblk1 V c 5 t : Vec Ideal S1x128 .f32) (ix2 p k) = (V c main_v59 : S1x128.Idx → EReal) (ix2 p k) := by
  obtain ⟨e0, e1⟩ := idx1_5 t
  unfold iblk1
  rw [View.read_apply]
  show V c main_v59 _ = V c main_v59 _
  refine congrArg (V c main_v59) (funext fun a => Fin.ext ?_)
  match a with
  | ⟨0, _⟩ => show win1_5.index t (0 : Fin 2) * 1 + 1 * p.val = p.val; rw [e0]; omega
  | ⟨1, _⟩ => show win1_5.index t (1 : Fin 2) * 128 + 1 * k.val = k.val; rw [e1]; omega

/-- The one block of the scale row is the whole array, at every grid point. -/
theorem blk6 (c : Dev nD) (t : Fin cfg1.N) (p : Fin 1) (k : Fin 128) :
    (iblk1 V c 6 t : Vec Ideal S1x128 .f32) (ix2 p k) = (V c main_v60 : S1x128.Idx → EReal) (ix2 p k) := by
  obtain ⟨e0, e1⟩ := idx1_6 t
  unfold iblk1
  rw [View.read_apply]
  show V c main_v60 _ = V c main_v60 _
  refine congrArg (V c main_v60) (funext fun a => Fin.ext ?_)
  match a with
  | ⟨0, _⟩ => show win1_6.index t (0 : Fin 2) * 1 + 1 * p.val = p.val; rw [e0]; omega
  | ⟨1, _⟩ => show win1_6.index t (1 : Fin 2) * 128 + 1 * k.val = k.val; rw [e1]; omega

/-- The one block of the shift row is the whole array, at every grid point. -/
theorem blk7 (c : Dev nD) (t : Fin cfg1.N) (p : Fin 1) (k : Fin 128) :
    (iblk1 V c 7 t : Vec Ideal S1x128 .f32) (ix2 p k) = (V c main_v61 : S1x128.Idx → EReal) (ix2 p k) := by
  obtain ⟨e0, e1⟩ := idx1_7 t
  unfold iblk1
  rw [View.read_apply]
  show V c main_v61 _ = V c main_v61 _
  refine congrArg (V c main_v61) (funext fun a => Fin.ext ?_)
  match a with
  | ⟨0, _⟩ => show win1_7.index t (0 : Fin 2) * 1 + 1 * p.val = p.val; rw [e0]; omega
  | ⟨1, _⟩ => show win1_7.index t (1 : Fin 2) * 128 + 1 * k.val = k.val; rw [e1]; omega

/-- The one block of the mean row is the whole array, at every grid point. -/
theorem blk8 (c : Dev nD) (t : Fin cfg1.N) (p : Fin 1) (k : Fin 128) :
    (iblk1 V c 8 t : Vec Ideal S1x128 .f32) (ix2 p k) = (V c main_v62 : S1x128.Idx → EReal) (ix2 p k) := by
  obtain ⟨e0, e1⟩ := idx1_8 t
  unfold iblk1
  rw [View.read_apply]
  show V c main_v62 _ = V c main_v62 _
  refine congrArg (V c main_v62) (funext fun a => Fin.ext ?_)
  match a with
  | ⟨0, _⟩ => show win1_8.index t (0 : Fin 2) * 1 + 1 * p.val = p.val; rw [e0]; omega
  | ⟨1, _⟩ => show win1_8.index t (1 : Fin 2) * 128 + 1 * k.val = k.val; rw [e1]; omega

/-- The one block of the classifier's weight matrix is the whole array, at every grid point. -/
theorem blk9 (c : Dev nD) (t : Fin cfg1.N) (p : Fin 128) (k : Fin 2) :
    (iblk1 V c 9 t : Vec Ideal S128x2 .bf16) (ix2 p k) = (V c main_v58 : S128x2.Idx → EReal) (ix2 p k) := by
  obtain ⟨e0, e1⟩ := idx1_9 t
  unfold iblk1
  rw [View.read_apply]
  show V c main_v58 _ = V c main_v58 _
  refine congrArg (V c main_v58) (funext fun a => Fin.ext ?_)
  match a with
  | ⟨0, _⟩ => show win1_9.index t (0 : Fin 2) * 128 + 1 * p.val = p.val; rw [e0]; omega
  | ⟨1, _⟩ => show win1_9.index t (1 : Fin 2) * 2 + 1 * k.val = k.val; rw [e1]; omega

/-- The one block of the classifier's bias row is the whole array, at every grid point. -/
theorem blk10 (c : Dev nD) (t : Fin cfg1.N) (p : Fin 1) (k : Fin 2) :
    (iblk1 V c 10 t : Vec Ideal S1x2 .f32) (ix2 p k) = (V c main_v63 : S1x2.Idx → EReal) (ix2 p k) := by
  obtain ⟨e0, e1⟩ := idx1_10 t
  unfold iblk1
  rw [View.read_apply]
  show V c main_v63 _ = V c main_v63 _
  refine congrArg (V c main_v63) (funext fun a => Fin.ext ?_)
  match a with
  | ⟨0, _⟩ => show win1_10.index t (0 : Fin 2) * 1 + 1 * p.val = p.val; rw [e0]; omega
  | ⟨1, _⟩ => show win1_10.index t (1 : Fin 2) * 2 + 1 * k.val = k.val; rw [e1]; omega

/-! ## From the blocks to the array -/

/-- The two zero offsets of a load or store of a whole block. -/
theorem hz : (![0, 0] : Fin 2 → Nat) = fun _ => 0 := funext fun a => by fin_cases a <;> rfl

/-- The logits as one function of the arrays the region finds: the classifier of the layer. -/
abbrev logits (c : Dev nD) : Logits.Idx → EReal :=
  head (layerMul (V c main_v48) (V c main_v37) (V c main_v12) (V c main_v50) (V c main_v52) (V c main_v59)
      (V c main_v60) (V c main_v61) (V c main_v62)) (V c main_v58) (V c main_v63)

/-- What grid point t writes back is block t of `logits`: at local (p, j) the body's value is the
    classifier of the layer at row t · 2000 + p, which is where the output block's (p, j) lies in the array. -/
theorem flushed_eq (c : Dev nD) (t : Fin cfg1.N) :
    (dat1 (F := Ideal) V c).flushed 11 t = ((cfg1.win 11).blk t).view.read (Elt Ideal) (logits V c) := by
  show (cfg1.win 11).cut (grid1.coords t) ((dat1 (F := Ideal) V c).after 11 t) = _
  rw [after1_11]
  unfold out1_11
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x2) hz, View.ld_unit_zero (S := S1x2) hz]
  refine funext fun (y : S2000x2.Idx) => ?_
  obtain ⟨p, j, rfl⟩ : ∃ (p : Fin 2000) (j : Fin 2), y = ix2 p j := ⟨y 0, y 1, eq_ix2 y⟩
  have ht : t.val < 25 := lt_of_lt_of_eq t.isLt N_1
  have hr : t.val * 2000 + p.val < 50000 := by have := p.isLt; omega
  obtain ⟨e0, e1⟩ := idx1_11 t
  -- where the output block's (p, j) lies in the array
  have hemb : ((cfg1.win 11).blk t).view.emb (ix2 p j) = (ix2 (⟨t.val * 2000 + p.val, hr⟩ : Fin 50000) j : S50000x2.Idx) :=
    funext fun a => Fin.ext (by
      match a with
      | ⟨0, _⟩ => show win1_11.index t (0 : Fin 2) * 2000 + 1 * p.val = t.val * 2000 + p.val; rw [e0]; omega
      | ⟨1, _⟩ => show win1_11.index t (1 : Fin 2) * 2 + 1 * j.val = j.val; rw [e1]; omega)
  refine (body_at (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t)
      (V c main_v48) (V c main_v37) (V c main_v12) (V c main_v50) (V c main_v52) (V c main_v59) (V c main_v60)
      (V c main_v61) (V c main_v62) (V c main_v58) (V c main_v63) p j ⟨t.val * 2000 + p.val, hr⟩
      (fun k => blk0 V c t p k _ rfl) (fun k => blk1 V c t p k _ rfl) (blk2 V c t p 0 _ rfl)
      (fun k q => blk3 V c t k q) (fun k q => blk4 V c t k q) (fun q => blk5 V c t 0 q) (fun q => blk6 V c t 0 q)
      (fun q => blk7 V c t 0 q) (fun q => blk8 V c t 0 q) (fun k i => blk9 V c t k i) (fun i => blk10 V c t 0 i)).trans ?_
  exact (congrArg (logits V c) hemb).symm

/-- An index of the array of logits is in point t's block iff each coordinate is in the block's range. -/
theorem mem_blk (t : Fin cfg1.N) (i : S50000x2.Idx) :
    i ∈ ((cfg1.win 11).blk t).view.set ↔ ∀ a : Fin 2, win1_11.index t a * S2000x2.size a ≤ (i a).val
      ∧ (i a).val < win1_11.index t a * S2000x2.size a + S2000x2.size a := by
  show i ∈ ((View.whole main_v64).slice (win1_11.rect t)).set ↔ _
  rw [View.set_slice_whole, Rect.mem_set_unit]
  exact Iff.rfl

/-- The blocks cover the array: row n is in the block of point n / 2000, and every point writes back. -/
theorem cover (i : S50000x2.Idx) :
    ∃ t : Fin cfg1.N, (cfg1.win 11).flush t = true ∧ i ∈ ((cfg1.win 11).blk t).view.set := by
  have hi0 : (i 0).val < 50000 := (i 0).isLt
  have hi1 : (i 1).val < 2 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨e0, e1⟩ := idx1_11 t
  refine ⟨t, flush1_11 t, ?_⟩
  rw [mem_blk]
  intro a
  match a with
  | ⟨0, _⟩ =>
    show win1_11.index t (0 : Fin 2) * 2000 ≤ (i 0).val ∧ (i 0).val < win1_11.index t (0 : Fin 2) * 2000 + 2000
    rw [e0, ht]; omega
  | ⟨1, _⟩ =>
    show win1_11.index t (1 : Fin 2) * 2 ≤ (i 1).val ∧ (i 1).val < win1_11.index t (1 : Fin 2) * 2 + 2
    rw [e1]; omega

/-- THE ARRAY OF LOGITS after the region's last point: the classifier of the second layer, as one function
    of the arrays the region finds. -/
theorem final1 (c : Dev nD) :
    (dat1 (F := Ideal) V c).arrAt 11 cfg1.N
      = Cert.Sage.head (Cert.Sage.layerMul (V c main_v48) (V c main_v37) (V c main_v12) (V c main_v50) (V c main_v52)
          (V c main_v59) (V c main_v60) (V c main_v61) (V c main_v62)) (V c main_v58) (V c main_v63) :=
  (dat1 (F := Ideal) V c).arrAt_eq_of_cover 11 (logits V c) (fun t _ => flushed_eq V c t) cover

end Cert.Sage.R1

end
-- ==== Proof.HostChains.lean ====
/-
  The host-side pieces both programs share, named once, at the ideal values, and the whole network
  written over them.

  From the edge list (row 0 the source node of each edge, row 1 its destination): the source indices,
  wrapped when negative, as a column; the destination indices as a column; the number of edges arriving at
  each node (a scatter-add of ones); the reciprocal of that count, or of 1 for an isolated node, as a column;
  and the aggregation — gather each edge's source row, add it into its destination's row.  From the
  parameters: a weight matrix transposed, a batch-normalisation scale g / sqrt(v + ε), and a vector recast
  as a one-row matrix.  Changes of float format are kept where the program has them; at the ideal values
  they are the identity.

  `network` is the program's result as one function of its eighteen arguments: two layers, the second
  aggregating and transforming the first's output, then the classifier.
-/
import proofs.«161813_j51161650430634_2_alg».proof.KernelIdeal
import proofs.«161813_j51161650430634_2_alg».proof.Proof.Gen.KernelIdeal
import proofs.«161813_j51161650430634_2_alg».proof.Proof.Spec

noncomputable section

namespace Cert.Sage.K

open Idealize.ShloMosaic Cert.KernelIdeal Cert.KernelIdeal.Facts₀ Cert.Sage

abbrev Edges : Type := IVec S2x800000 32
abbrev EdgeRow : Type := IVec S800000 32
abbrev EdgeCol : Type := IVec S800000x1 32
abbrev Feat (φ : FTy) : Type := FVec Ideal S50000x128 φ
abbrev Vec128 : Type := FVec Ideal S128 .f32

/-- each edge's source node -/
def srcRow (e : Edges) : EdgeRow :=
  shapeCast _ (extractStridedSlice S1x800000 ![0, 0] e slices_S2x800000_S1x800000_0_0) shapeCasts_S1x800000_S800000
/-- each edge's destination node -/
def dstRow (e : Edges) : EdgeRow :=
  shapeCast _ (extractStridedSlice S1x800000 ![1, 0] e slices_S2x800000_S1x800000_1_0) shapeCasts_S1x800000_S800000
/-- the source indices, a negative one wrapped by the number of nodes, as a column -/
def src (e : Edges) : EdgeCol :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))
/-- the destination indices as a column -/
def dst (e : Edges) : EdgeCol := broadcastInDim S800000x1 ![0] bcast_S800000_S800000x1_0 (dstRow e)
/-- how many edges arrive at each node -/
def cnt (e : Edges) : FVec Ideal S50000 .f32 :=
  Host.scatterAdd scatter_S50000_S800000x1_S800000_n_0_0_1
    (broadcastInDim S50000 ![] bcast_S_S50000 (constant (F := Ideal) S_ .f32 0x00000000#32)) (dst e)
    (broadcastInDim S800000 ![] bcast_S_S800000 (constant (F := Ideal) S_ .f32 0x3F800000#32))
/-- 1 / max(count, 1), one per node, as a column -/
def inv (e : Edges) : FVec Ideal S50000x1 .f32 :=
  shapeCast _ (Host.divf (F := Ideal) (broadcastInDim S50000 ![] bcast_S_S50000 (constant (F := Ideal) S_ .f32 0x3F800000#32))
    (maximumf (cnt e) (broadcastInDim S50000 ![] bcast_S_S50000 (constant (F := Ideal) S_ .f32 0x3F800000#32)))) shapeCasts_S50000_S50000x1
/-- the sum, into each node's row, of the rows of the sources of the edges arriving at it -/
def agg (X : Feat .bf16) (e : Edges) : Feat .f32 :=
  Host.scatterAdd scatter_S50000x128_S800000x1_S800000x128_1_0_0_1
    (broadcastInDim S50000x128 ![] bcast_S_S50000x128 (constant (F := Ideal) S_ .f32 0x00000000#32)) (dst e)
    (extf .f32 (Host.gather gather_S50000x128_S800000x1_S800000x128_1_0_n_n_0_1_1128 X (src e)) bitsLt_bf16_f32)
/-- the node features in the narrower format -/
def narrow (x : Feat .f32) : Feat .bf16 := truncf .bf16 x bitsLt_bf16_f32
/-- a 128 × 128 weight matrix transposed -/
def wT (W : FVec Ideal S128x128 .f32) : FVec Ideal S128x128 .bf16 :=
  truncf .bf16 (transpose S128x128 [1, 0] W transposes_S128x128_S128x128_1_0) bitsLt_bf16_f32
/-- the batch-normalisation scale g / sqrt(v + ε) -/
def scale (g v : Vec128) : Vec128 :=
  Host.divf (F := Ideal) g (Host.sqrt (F := Ideal) (addf v (broadcastInDim S128 ![] bcast_S_S128 (constant (F := Ideal) S_ .f32 0x3727C5AC#32))))
/-- a vector of 128 as a one-row matrix -/
def row (b : Vec128) : FVec Ideal S1x128 .f32 := shapeCast _ b shapeCasts_S128_S1x128
/-- the classifier's 2 × 128 weight matrix transposed -/
def wlinT (W : FVec Ideal S2x128 .f32) : FVec Ideal S128x2 .bf16 :=
  truncf .bf16 (transpose S128x2 [1, 0] W transposes_S2x128_S128x2_1_0) bitsLt_bf16_f32
/-- the classifier's bias as a one-row matrix -/
def row2 (b : FVec Ideal S2 .f32) : FVec Ideal S1x2 .f32 := shapeCast _ b shapeCasts_S2_S1x2

/-- The first layer's output: aggregate the node features, transform, normalise, rectify. -/
def hidden (a0 : Feat .f32) (a1 : Edges) (a2 : FVec Ideal S128x128 .f32) (a3 : Vec128)
    (a4 : FVec Ideal S128x128 .f32) (a8 a9 a10 a11 : Vec128) : NodeFeat.Idx → EReal :=
  layerMul (agg (narrow a0) a1) (narrow a0) (inv a1) (wT a2) (wT a4) (row a3) (row (scale a8 a11)) (row a9) (row a10)

/-- The whole network: the second layer over the first's output, then the classifier. -/
def network (a0 : Feat .f32) (a1 : Edges) (a2 : FVec Ideal S128x128 .f32) (a3 : Vec128)
    (a4 a5 : FVec Ideal S128x128 .f32) (a6 : Vec128) (a7 : FVec Ideal S128x128 .f32)
    (a8 a9 a10 a11 a12 a13 a14 a15 : Vec128) (a16 : FVec Ideal S2x128 .f32)
    (a17 : FVec Ideal S2 .f32) : Logits.Idx → EReal :=
  head (layerMul (agg (hidden a0 a1 a2 a3 a4 a8 a9 a10 a11) a1) (hidden a0 a1 a2 a3 a4 a8 a9 a10 a11) (inv a1) (wT a5) (wT a7)
          (row a6) (row (scale a12 a15)) (row a13) (row a14))
    (wlinT a16) (row2 a17)

end Cert.Sage.K

end
-- ==== Proof.HostReads.lean ====
/-
  What the program's host operations leave in the arrays each of its two layer computations reads.

  The program is a line of host operations, the first layer, a second line of host operations, the second
  layer with the classifier.  The contents of a buffer after a line of operations is a fold of the operations'
  results over the contents before it; reading that fold at one buffer walks back, operation by operation, to the
  program's arguments, and what it finds is one of the named host chains: the aggregation of the (narrowed)
  node features along the edges, the reciprocal in-degree column, a transposed weight matrix, the
  normalisation scale, a vector recast as a one-row matrix.

  For the second layer the walk crosses the first layer's computation: a buffer the first layer does not
  own is unchanged across it, an array the first layer only reads is unchanged too (an input is never
  written back), and the first layer's output stays as a read of the contents at its exit.
-/
import proofs.«161813_j51161650430634_2_alg».proof.Proof.Gen.KernelIdeal.Frame
import proofs.«161813_j51161650430634_2_alg».proof.Proof.HostChains

noncomputable section

namespace Cert.Sage.HostReads

open Idealize.ShloMosaic Idealize.ShloMosaic.TcCoe
open Cert.KernelIdeal Cert.KernelIdeal.Gen Cert.Sage.K

variable (m : (ℓ : Loc nD τ sig) → Buf (Elt Ideal) ℓ) (ρ : Dev nD → PrngReg) (c : Dev nD)

/-! ## The first layer's nine operand arrays: the first line of host operations read at each -/

/-- the aggregation of the narrowed node features along the edges -/
theorem V1_v24 : V1 m ρ c main_v24 = agg (narrow (m ((c : Thread nD τ).loc main_arg0))) (m ((c : Thread nD τ).loc main_arg1)) := by
  show StableHlo.after hostOps0 (W0 m ρ c) (Proc.devRef .tc main_v24) = _
  after_results_simp <;> rfl

/-- the node features in the narrower format -/
theorem V1_v13 : V1 m ρ c main_v13 = narrow (m ((c : Thread nD τ).loc main_arg0)) := by
  show StableHlo.after hostOps0 (W0 m ρ c) (Proc.devRef .tc main_v13) = _
  after_results_simp <;> rfl

/-- the reciprocal in-degree column -/
theorem V1_v12 : V1 m ρ c main_v12 = inv (m ((c : Thread nD τ).loc main_arg1)) := by
  show StableHlo.after hostOps0 (W0 m ρ c) (Proc.devRef .tc main_v12) = _
  after_results_simp <;> rfl

/-- the neighbour weight matrix, transposed -/
theorem V1_v26 : V1 m ρ c main_v26 = wT (m ((c : Thread nD τ).loc main_arg2)) := by
  show StableHlo.after hostOps0 (W0 m ρ c) (Proc.devRef .tc main_v26) = _
  after_results_simp <;> rfl

/-- the self weight matrix, transposed -/
theorem V1_v28 : V1 m ρ c main_v28 = wT (m ((c : Thread nD τ).loc main_arg4)) := by
  show StableHlo.after hostOps0 (W0 m ρ c) (Proc.devRef .tc main_v28) = _
  after_results_simp <;> rfl

/-- the bias as a row -/
theorem V1_v33 : V1 m ρ c main_v33 = row (m ((c : Thread nD τ).loc main_arg3)) := by
  show StableHlo.after hostOps0 (W0 m ρ c) (Proc.devRef .tc main_v33) = _
  after_results_simp <;> rfl

/-- the normalisation scale g / sqrt(v + ε) as a row -/
theorem V1_v34 : V1 m ρ c main_v34 = row (scale (m ((c : Thread nD τ).loc main_arg8)) (m ((c : Thread nD τ).loc main_arg11))) := by
  show StableHlo.after hostOps0 (W0 m ρ c) (Proc.devRef .tc main_v34) = _
  after_results_simp <;> rfl

/-- the normalisation shift as a row -/
theorem V1_v35 : V1 m ρ c main_v35 = row (m ((c : Thread nD τ).loc main_arg9)) := by
  show StableHlo.after hostOps0 (W0 m ρ c) (Proc.devRef .tc main_v35) = _
  after_results_simp <;> rfl

/-- the running mean as a row -/
theorem V1_v36 : V1 m ρ c main_v36 = row (m ((c : Thread nD τ).loc main_arg10)) := by
  show StableHlo.after hostOps0 (W0 m ρ c) (Proc.devRef .tc main_v36) = _
  after_results_simp <;> rfl

/-! ## Across the first layer: what the second line of host operations finds

A buffer the first layer does not own holds after it what it held before; so the edge list's two rows, cut
out by the first line of host operations, and the program's arguments are read through the first layer
unchanged.  The reciprocal in-degree column is one of the first layer's INPUT arrays: an input is never written
back, so it too is as the first layer found it. -/

/-- each edge's source node, still there after the first layer -/
theorem W2_v1 : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp <;> rfl)

/-- each edge's destination node, still there after the first layer -/
theorem W2_v3 : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results_simp <;> rfl)

/-- the reciprocal in-degree column after the first layer: its array at the layer's exit is the array the
    layer's write-backs leave, an input's is never written, and at entry it held the column -/
theorem W2_v12 : W2 m ρ c (Proc.devRef .tc main_v12) = inv (m ((c : Thread nD τ).loc main_arg1)) :=
  calc W2 m ρ c (Proc.devRef .tc main_v12)
    _ = (dat0 (V1 m ρ) c).arrAt 2 cfg0.N := W2_arr m ρ c 2
    _ = (dat0 (V1 m ρ) c).A 2 := Pipeline.Dat.arrAt_in _ 2 (by decide) _
    _ = V1 m ρ c main_v12 := A_eq0 (V1 m ρ) c 2
    _ = inv (m ((c : Thread nD τ).loc main_arg1)) := V1_v12 m ρ c

/-- argument 5 is written by no host operation and is not the first layer's: it is as launched -/
theorem W2_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-- argument 6 is written by no host operation and is not the first layer's: it is as launched -/
theorem W2_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-- argument 7 is written by no host operation and is not the first layer's: it is as launched -/
theorem W2_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-- argument 12 is written by no host operation and is not the first layer's: it is as launched -/
theorem W2_arg12 : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp <;> rfl)

/-- argument 13 is written by no host operation and is not the first layer's: it is as launched -/
theorem W2_arg13 : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp <;> rfl)

/-- argument 14 is written by no host operation and is not the first layer's: it is as launched -/
theorem W2_arg14 : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results_simp <;> rfl)

/-- argument 15 is written by no host operation and is not the first layer's: it is as launched -/
theorem W2_arg15 : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    after_results_simp <;> rfl)

/-- argument 16 is written by no host operation and is not the first layer's: it is as launched -/
theorem W2_arg16 : W2 m ρ c (Proc.devRef .tc main_arg16) = (m ((c : Thread nD τ).loc main_arg16)) :=
  (W2_of_ne m ρ c main_arg16 (by decide)).trans (by
    show StableHlo.after hostOps0 (W0 m ρ c) (Proc.devRef .tc main_arg16) = _
    after_results_simp <;> rfl)

/-- argument 17 is written by no host operation and is not the first layer's: it is as launched -/
theorem W2_arg17 : W2 m ρ c (Proc.devRef .tc main_arg17) = (m ((c : Thread nD τ).loc main_arg17)) :=
  (W2_of_ne m ρ c main_arg17 (by decide)).trans (by
    show StableHlo.after hostOps0 (W0 m ρ c) (Proc.devRef .tc main_arg17) = _
    after_results_simp <;> rfl)

/-! ## The second layer's eleven operand arrays: the second line of host operations read at each, over the
    contents at the first layer's exit -/

/-- the aggregation, along the edges, of the first layer's output -/
theorem V3_v48 : V3 m ρ c main_v48 = agg (W2 m ρ c (Proc.devRef .tc main_v37)) (m ((c : Thread nD τ).loc main_arg1)) := by
  show StableHlo.after hostOps1 (W2 m ρ c) (Proc.devRef .tc main_v48) = _
  after_results_simp
  rw [W2_v1 m ρ c, W2_v3 m ρ c]
  rfl

/-- the first layer's output, which no host operation of the second line writes -/
theorem V3_v37 : V3 m ρ c main_v37 = W2 m ρ c (Proc.devRef .tc main_v37) := by
  show StableHlo.after hostOps1 (W2 m ρ c) (Proc.devRef .tc main_v37) = _
  after_results_simp <;> rfl

/-- the reciprocal in-degree column, which no host operation of the second line writes -/
theorem V3_v12 : V3 m ρ c main_v12 = inv (m ((c : Thread nD τ).loc main_arg1)) := by
  show StableHlo.after hostOps1 (W2 m ρ c) (Proc.devRef .tc main_v12) = _
  after_results_simp
  exact W2_v12 m ρ c

/-- the second layer's neighbour weight matrix, transposed -/
theorem V3_v50 : V3 m ρ c main_v50 = wT (m ((c : Thread nD τ).loc main_arg5)) := by
  show StableHlo.after hostOps1 (W2 m ρ c) (Proc.devRef .tc main_v50) = _
  after_results_simp
  rw [W2_arg5 m ρ c]
  rfl

/-- the second layer's self weight matrix, transposed -/
theorem V3_v52 : V3 m ρ c main_v52 = wT (m ((c : Thread nD τ).loc main_arg7)) := by
  show StableHlo.after hostOps1 (W2 m ρ c) (Proc.devRef .tc main_v52) = _
  after_results_simp
  rw [W2_arg7 m ρ c]
  rfl

/-- the second layer's bias as a row -/
theorem V3_v59 : V3 m ρ c main_v59 = row (m ((c : Thread nD τ).loc main_arg6)) := by
  show StableHlo.after hostOps1 (W2 m ρ c) (Proc.devRef .tc main_v59) = _
  after_results_simp
  rw [W2_arg6 m ρ c]
  rfl

/-- the second layer's normalisation scale g / sqrt(v + ε) as a row -/
theorem V3_v60 : V3 m ρ c main_v60 = row (scale (m ((c : Thread nD τ).loc main_arg12)) (m ((c : Thread nD τ).loc main_arg15))) := by
  show StableHlo.after hostOps1 (W2 m ρ c) (Proc.devRef .tc main_v60) = _
  after_results_simp
  rw [W2_arg12 m ρ c, W2_arg15 m ρ c]
  rfl

/-- the second layer's normalisation shift as a row -/
theorem V3_v61 : V3 m ρ c main_v61 = row (m ((c : Thread nD τ).loc main_arg13)) := by
  show StableHlo.after hostOps1 (W2 m ρ c) (Proc.devRef .tc main_v61) = _
  after_results_simp
  rw [W2_arg13 m ρ c]
  rfl

/-- the second layer's running mean as a row -/
theorem V3_v62 : V3 m ρ c main_v62 = row (m ((c : Thread nD τ).loc main_arg14)) := by
  show StableHlo.after hostOps1 (W2 m ρ c) (Proc.devRef .tc main_v62) = _
  after_results_simp
  rw [W2_arg14 m ρ c]
  rfl

/-- the classifier's weight matrix, transposed -/
theorem V3_v58 : V3 m ρ c main_v58 = wlinT (m ((c : Thread nD τ).loc main_arg16)) := by
  show StableHlo.after hostOps1 (W2 m ρ c) (Proc.devRef .tc main_v58) = _
  after_results_simp
  rw [W2_arg16 m ρ c]
  rfl

/-- the classifier's bias as a row -/
theorem V3_v63 : V3 m ρ c main_v63 = row2 (m ((c : Thread nD τ).loc main_arg17)) := by
  show StableHlo.after hostOps1 (W2 m ρ c) (Proc.devRef .tc main_v63) = _
  after_results_simp
  rw [W2_arg17 m ρ c]
  rfl

end Cert.Sage.HostReads

end
-- ==== Proof.KernelValue.lean ====
/-
  The kernel program's result is the network.

  The result buffer ends at what the second pallas_call's write-backs leave; block by block that is the
  classifier over a layer of the arrays the region finds at its entry; those arrays are the named host chains
  of the program's arguments, except the first pallas_call's output, which is, in the same way, a layer of the
  arrays the first region finds — again host chains of the arguments.  Substituting one into the other gives
  the two-layer network of the arguments.
-/
import proofs.«161813_j51161650430634_2_alg».proof.Proof.Region0
import proofs.«161813_j51161650430634_2_alg».proof.Proof.Region1
import proofs.«161813_j51161650430634_2_alg».proof.Proof.HostReads

noncomputable section

namespace Cert.Sage.KernelValue

open Idealize.ShloMosaic Idealize.ShloMosaic.TcCoe Idealize.SL.Sem
open Cert.KernelIdeal Cert.KernelIdeal.Gen Cert.Sage Cert.Sage.K

variable (m : (ℓ : Loc nD τ sig) → Buf (Elt Ideal) ℓ) (ρ : Dev nD → PrngReg) (c : Dev nD)

/-- After the first pallas_call its output array is the first layer of the arguments. -/
theorem hidden_eq :
    W2 m ρ c (Proc.devRef .tc main_v37)
      = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) := by
  refine (W2_arr (F := Ideal) m ρ c 9).trans ?_
  rw [R0.final0 (V1 m ρ) c, HostReads.V1_v24, HostReads.V1_v13, HostReads.V1_v12, HostReads.V1_v26, HostReads.V1_v28,
    HostReads.V1_v33, HostReads.V1_v34, HostReads.V1_v35, HostReads.V1_v36]
  rfl

/-- After the second pallas_call the result array is the whole network of the arguments. -/
theorem result_eq :
    W4 m ρ c (Proc.devRef .tc main_v64)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W4_arr (F := Ideal) m ρ c 11).trans ?_
  rw [R1.final1 (V3 m ρ) c, HostReads.V3_v48, HostReads.V3_v37, HostReads.V3_v12, HostReads.V3_v50, HostReads.V3_v52,
    HostReads.V3_v59, HostReads.V3_v60, HostReads.V3_v61, HostReads.V3_v62, HostReads.V3_v58, HostReads.V3_v63,
    hidden_eq]
  rfl

end Cert.Sage.KernelValue

end
-- ==== Proof.RefHead.lean ====
/-
  The reference's last step: the classifier.

  The reference multiplies the second layer's output by the classifier's weight matrix transposed and adds the
  bias, broadcast over the nodes.  At the ideal values, entry (n, j) of the result is the sum over k of the
  layer's entry (n, k) times the weight's entry (j, k), plus the bias's entry j — the classifier of the shared
  specification over the transposed weight and the bias recast as a row.
-/
import proofs.«161813_j51161650430634_2_alg».proof.Proof.Gen.ReferenceIdeal.Read
import proofs.«161813_j51161650430634_2_alg».proof.Proof.HostChains
import Idealize.ShloMosaic.Lib.ValueLayout

noncomputable section

namespace Cert.Sage.Ref

open Idealize.ShloMosaic Idealize.ShloMosaic.ValueIdx Cert.ReferenceIdeal Cert.ReferenceIdeal.Read Cert.Sage

/-- The classifier's weight transposed, read at (k, j): the weight at (j, k). -/
theorem wlinT_apply (x16 : (⟨S2x128, .f32⟩ : BufTy).Contents (Elt Ideal)) (k : Fin 128) (j : Fin 2) :
    K.wlinT x16 (ix2 k j) = x16 (ix2 j k) := by
  unfold K.wlinT
  exact transpose_ix2_apply x16 _ k j

/-- The classifier's bias as a row, read at (0, j): the bias at j. -/
theorem row2_apply (x17 : (⟨S2, .f32⟩ : BufTy).Contents (Elt Ideal)) (j : Fin 2) :
    K.row2 x17 (ix2 (0 : Fin 1) j) = x17 (ix1 j) := by
  unfold K.row2
  exact shapeCast_a_1a_apply x17 _ 0 j

/-- The reference's result is the classifier over its second layer's output. -/
theorem ref_head (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S2x128, .f32⟩ : BufTy).Contents (Elt Ideal)) (x17 : (⟨S2, .f32⟩ : BufTy).Contents (Elt Ideal)) :
    val_main_v90 (F := Ideal) x0 x1 x2 x3 x4 x5 x6 x7 x8 x9 x10 x11 x12 x13 x14 x15 x16 x17
      = head (val_main_v85 (F := Ideal) x0 x1 x2 x3 x4 x5 x6 x7 x8 x9 x10 x11 x12 x13 x14 x15) (K.wlinT x16) (K.row2 x17) := by
  funext i
  obtain ⟨n, j, rfl⟩ : ∃ (n : Fin 50000) (j : Fin 2), i = ix2 n j := ⟨i 0, i 1, eq_ix2 i⟩
  rw [head_ix2, val_main_v90_apply, val_main_v87_apply, val_main_v89_apply, val_main_v88_apply]
  unfold headAt
  have el : ∀ k : Fin 128, lidx_main_v87 (ix2 n j) k = ix2 n k := fun k => funext fun a => Fin.ext (by
    match a with
    | ⟨0, _⟩ => rfl
    | ⟨1, _⟩ => rfl)
  have er : ∀ k : Fin 128, idx_main_v86 (ridx_main_v87 (ix2 n j) k) = ix2 j k := fun k => funext fun a => Fin.ext (by
    match a with
    | ⟨0, _⟩ => rfl
    | ⟨1, _⟩ => rfl)
  have eb : idx_main_v88 (idx_main_v89 (ix2 n j)) = ix1 j := funext fun a => Fin.ext (by
    match a with
    | ⟨0, _⟩ => rfl)
  rw [eb, row2_apply]
  refine congrArg (fun s : EReal => s + x17 (ix1 j)) (Finset.sum_congr rfl fun k _ => ?_)
  rw [el, val_main_v86_apply, er, wlinT_apply]

end Cert.Sage.Ref

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«161813_j51161650430634_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.RefLayers.lean ====
/-
  The reference program's two layers, at the ideal values (floats the extended reals, every operation exact),
  are the shared one-layer function `layerMul` over the host chains named in HostChains.

  One reference layer, over an aggregated array A, the node rows X and a per-node divisor c = max(count, 1):
  relu ((((A / c) · Wlᵀ + bl) + X · Wrᵀ − mean) · (g / sqrt (v + ε)) + b), every vector of 128 broadcast over the
  50000 rows and the divisor over the 128 columns.  The shared function instead multiplies A by the reciprocal
  column 1 / c and adds the bias after the second product.  Entry by entry the two agree: a quotient by
  max(count, 1), which is not zero, is the product with its reciprocal for every extended real dividend, and the
  addition of extended reals is commutative and associative.  Nothing is asked of the data: no finiteness.

  Both reference layers are the same sequence of operations, so the sequence is named once (`refLayer`), read at
  an entry once, and compared with `layerMul` once; each layer is then an instance, its gather / scatter-add chains
  and its scale chain being literally the shared ones.
-/
import proofs.«161813_j51161650430634_2_alg».proof.Proof.Gen.ReferenceIdeal.Read
import proofs.«161813_j51161650430634_2_alg».proof.Proof.HostChains
import proofs.«161813_j51161650430634_2_alg».proof.Proof.LibRowBlocks
import proofs.«161813_j51161650430634_2_alg».proof.Proof.LibColumns

noncomputable section

namespace Cert.Sage.Ref

open Cert.ReferenceIdeal Cert.ReferenceIdeal.Gen Cert.ReferenceIdeal.Read Cert.Sage Cert.Sage.K Idealize.ShloMosaic Idealize.ShloMosaic.ValueIdx

/-- node rows: 50000 × 128 -/
abbrev Rows : Type := FVec Ideal S50000x128 .f32
/-- the edge list: 2 × 800000 -/
abbrev EdgeList : Type := IVec S2x800000 32
/-- a weight matrix: 128 × 128 -/
abbrev Mat : Type := FVec Ideal S128x128 .f32
/-- a vector of 128 -/
abbrev Vec : Type := FVec Ideal S128 .f32
/-- one value per node -/
abbrev PerNode : Type := FVec Ideal S50000 .f32

/-! ## The float words 1.0 and 0.0 -/

/-- The word 0x3F800000 denotes 1: exponent field 127 = the bias, significand field 0. -/
theorem one_eq : Ideal.ofBits .f32 0x3F800000#32 = 1 := by
  simp [Ideal.ofBits, Ideal.ieee]
  rw [← EReal.coe_mul]
  norm_num

/-! ## One reference layer, named -/

/-- a vector of 128 as every one of the 50000 rows -/
def rows (b : Vec) : Rows :=
  broadcastInDim S50000x128 ![0, 1] bcast_S1x128_S50000x128_0_1 (broadcastInDim S1x128 ![1] bcast_S128_S1x128_1 b)

/-- one value per node as every one of the 128 columns -/
def cols (c : PerNode) : Rows :=
  broadcastInDim S50000x128 ![0, 1] bcast_S50000x1_S50000x128_0_1 (broadcastInDim S50000x1 ![0] bcast_S50000_S50000x1_0 c)

/-- the value 1 at every node -/
def ones : PerNode := broadcastInDim S50000 ![] bcast_S_S50000 (constant (F := Ideal) S_ .f32 0x3F800000#32)

/-- a matrix of 50000 rows times the transpose of a 128 × 128 weight matrix -/
def timesT (L : Rows) (W : Mat) : Rows :=
  Host.dotGeneral (F := Ideal) dot_S50000x128_S128x128_S50000x128_1_0_0_1_n_n none L
    (transpose S128x128 [1, 0] W transposes_S128x128_S128x128_1_0)

/-- The reference's layer: divide the aggregated rows by the divisor, transform, add the bias, add the transformed
    own rows, subtract the mean, scale, shift, rectify. -/
def refLayer (A X : Rows) (cm : PerNode) (Wl Wr : Mat) (bl g b mean v : Vec) : Rows :=
  maximumf
    (addf (mulf (subf (addf (addf (timesT (Host.divf (F := Ideal) A (cols cm)) Wl) (rows bl)) (timesT X Wr)) (rows mean))
      (rows (K.scale g v))) (rows b))
    (broadcastInDim S50000x128 ![] bcast_S_S50000x128 (constant (F := Ideal) S_ .f32 0x00000000#32))

/-- The reciprocal column of HostChains, as a function of the count. -/
def invOf (c : PerNode) : FVec Ideal S50000x1 .f32 :=
  shapeCast _ (Host.divf (F := Ideal) ones (maximumf c ones)) Cert.KernelIdeal.Facts₀.shapeCasts_S50000_S50000x1

/-! ## Reading the pieces at an entry -/

theorem rows_apply (b : Vec) (n : Fin 50000) (j : Fin 128) : rows b (ix2 n j) = b (ix1 j) :=
  (val_main_v26_apply (F := Ideal) b (ix2 n j)).trans
    ((val_main_v25_apply (F := Ideal) b _).trans (congrArg b (funext fun a => match a with | ⟨0, _⟩ => rfl)))

theorem cols_apply (c : PerNode) (n : Fin 50000) (j : Fin 128) : cols c (ix2 n j) = c (ix1 n) := by
  unfold cols
  refine (broadcastInDim_apply _ bcast_S50000x1_S50000x128_0_1 _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])).trans ?_
  exact broadcastInDim_apply _ bcast_S50000_S50000x1_0 c (ix2 n (0 : Fin 1)) (ix1 n) (fun a => match a with
    | ⟨0, _⟩ => by show n.val = if (50000 : Nat) = 1 then 0 else n.val; rw [if_neg (by decide)])

/-- A transposed weight matrix read at (k, j) is the matrix at (j, k). -/
theorem transpose_apply' (W : Mat) (k j : Fin 128) :
    transpose S128x128 [1, 0] W transposes_S128x128_S128x128_1_0 (ix2 k j) = W (ix2 j k) :=
  (val_main_v23_apply (F := Ideal) W (ix2 k j)).trans
    (congrArg W (funext fun a => match a with | ⟨0, _⟩ => rfl | ⟨1, _⟩ => rfl))

/-- The shared transposed weight (its change of float format is the identity at the ideal values). -/
theorem wT_apply (W : Mat) (k j : Fin 128) : K.wT W (ix2 k j) = W (ix2 j k) :=
  transpose_apply' W k j

theorem timesT_apply (L : Rows) (W : Mat) (n : Fin 50000) (j : Fin 128) :
    timesT L W (ix2 n j) = ∑ k : Fin 128, L (ix2 n k) * W (ix2 j k) := by
  unfold timesT
  refine (Cert.Lib.RowBlocks.dotGeneral_plain_apply none L _ n j).trans ?_
  exact Finset.sum_congr rfl fun k _ => congrArg (fun t : EReal => L (ix2 n k) * t) (transpose_apply' W k j)

/-- A vector of 128 recast as a one-row matrix, read at (0, j). -/
theorem row_apply (b : Vec) (j : Fin 128) : K.row b (ix2 (0 : Fin 1) j) = b (ix1 j) := by
  unfold K.row
  refine shapeCast_apply b _ (ix2 (0 : Fin 1) j) (ix1 j) ?_
  rw [Shape.rowMajor_val_one, Shape.rowMajor_val_two]
  show j.val = 0 * 128 + j.val
  omega

/-- The reciprocal column at node n is 1 / max(count n, 1). -/
theorem invOf_apply (c : PerNode) (n : Fin 50000) :
    invOf c (ix2 n (0 : Fin 1)) = Ideal.div 1 (max (c (ix1 n)) 1) := by
  unfold invOf
  refine (Cert.Lib.Columns.shapeCast_a_a1_apply _ _ n).trans ?_
  show Ideal.div (Ideal.ofBits .f32 0x3F800000#32) (max (c (ix1 n)) (Ideal.ofBits .f32 0x3F800000#32)) = _
  rw [one_eq]

/-- The reference's layer at node n, feature j. -/
theorem refLayer_apply (A X : Rows) (cm : PerNode) (Wl Wr : Mat) (bl g b mean v : Vec) (n : Fin 50000) (j : Fin 128) :
    refLayer A X cm Wl Wr bl g b mean v (ix2 n j)
      = max (((((∑ k : Fin 128, Ideal.div (A (ix2 n k)) (cm (ix1 n)) * Wl (ix2 j k)) + bl (ix1 j))
                + ∑ k : Fin 128, X (ix2 n k) * Wr (ix2 j k)) - mean (ix1 j)) * K.scale g v (ix1 j) + b (ix1 j)) 0 := by
  show max (((((timesT (Host.divf (F := Ideal) A (cols cm)) Wl (ix2 n j)) + rows bl (ix2 n j))
                + timesT X Wr (ix2 n j)) - rows mean (ix2 n j)) * rows (K.scale g v) (ix2 n j) + rows b (ix2 n j))
        (Ideal.ofBits .f32 0x00000000#32) = _
  rw [rows_apply, rows_apply, rows_apply, rows_apply, Ideal.ofBits_zero_f32, timesT_apply, timesT_apply]
  have hd : ∀ k : Fin 128, Host.divf (F := Ideal) A (cols cm) (ix2 n k) = Ideal.div (A (ix2 n k)) (cm (ix1 n)) :=
    fun k => congrArg (fun t : EReal => Ideal.div (A (ix2 n k)) t) (cols_apply cm n k)
  rw [Finset.sum_congr rfl fun k _ => congrArg (fun t : EReal => t * Wl (ix2 j k)) (hd k)]

/-! ## The reference's layer is the shared layer -/

theorem refLayer_eq (A X : Rows) (c : PerNode) (Wl Wr : Mat) (bl g b mean v : Vec) :
    refLayer A X (maximumf c ones) Wl Wr bl g b mean v
      = layerMul A X (invOf c) (K.wT Wl) (K.wT Wr) (K.row bl) (K.row (K.scale g v)) (K.row b) (K.row mean) := by
  funext i
  obtain ⟨n, j, rfl⟩ : ∃ (n : Fin 50000) (j : Fin 128), i = ix2 n j := ⟨i 0, i 1, eq_ix2 i⟩
  rw [layerMul_ix2, refLayer_apply]
  unfold layerMulAt bnRelu
  rw [row_apply, row_apply, row_apply, row_apply, invOf_apply]
  have hc : (maximumf c ones) (ix1 n) = max (c (ix1 n)) 1 := by
    show max (c (ix1 n)) (Ideal.ofBits .f32 0x3F800000#32) = _
    rw [one_eq]
  have h1 : (∑ k : Fin 128, Ideal.div (A (ix2 n k)) ((maximumf c ones) (ix1 n)) * Wl (ix2 j k))
      = ∑ k : Fin 128, (A (ix2 n k) * Ideal.div 1 (max (c (ix1 n)) 1)) * K.wT Wl (ix2 k j) :=
    Finset.sum_congr rfl fun k _ => by rw [hc, mul_recip_eq_div, wT_apply]
  have h2 : (∑ k : Fin 128, X (ix2 n k) * Wr (ix2 j k)) = ∑ k : Fin 128, X (ix2 n k) * K.wT Wr (ix2 k j) :=
    Finset.sum_congr rfl fun k _ => by rw [wT_apply]
  rw [h1, h2, add_right_comm]

/-! ## The two layers -/

/-- The first layer's operations are `refLayer` over the reference's own aggregation and divisor. -/
theorem v44_eq (x0 : Rows) (x1 : EdgeList) (x2 : Mat) (x3 : Vec) (x4 : Mat) (x8 x9 x10 x11 : Vec) :
    val_main_v44 (F := Ideal) x0 x1 x2 x3 x4 x8 x9 x10 x11
      = refLayer (val_main_v13 (F := Ideal) x0 x1) x0 (val_main_v19 (F := Ideal) x1) x2 x4 x3 x8 x9 x10 x11 := rfl

/-- The reference's aggregation of the node features is the shared one (the narrower float format is the same
    extended reals). -/
theorem v13_eq (x0 : Rows) (x1 : EdgeList) : val_main_v13 (F := Ideal) x0 x1 = K.agg (K.narrow x0) x1 := rfl

/-- The reference's divisor is max(count, 1) over the shared count. -/
theorem v19_eq (x1 : EdgeList) : val_main_v19 (F := Ideal) x1 = maximumf (K.cnt x1) ones := rfl

theorem inv_eq (x1 : EdgeList) : K.inv x1 = invOf (K.cnt x1) := rfl

/-- The reference's first layer is the shared first layer. -/
theorem ref_hidden (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x8 x9 x10 x11 : (⟨S128, .f32⟩ : BufTy).Contents (Elt Ideal)) :
    val_main_v44 (F := Ideal) x0 x1 x2 x3 x4 x8 x9 x10 x11 = K.hidden x0 x1 x2 x3 x4 x8 x9 x10 x11 := by
  rw [v44_eq, v13_eq, v19_eq]
  exact refLayer_eq (K.agg (K.narrow x0) x1) x0 (K.cnt x1) x2 x4 x3 x8 x9 x10 x11

/-- The second layer's operations are `refLayer` over the first layer's output. -/
theorem v85_eq (x0 : Rows) (x1 : EdgeList) (x2 : Mat) (x3 : Vec) (x4 x5 : Mat) (x6 : Vec) (x7 : Mat)
    (x8 x9 x10 x11 x12 x13 x14 x15 : Vec) :
    val_main_v85 (F := Ideal) x0 x1 x2 x3 x4 x5 x6 x7 x8 x9 x10 x11 x12 x13 x14 x15
      = refLayer (val_main_v54 (F := Ideal) x0 x1 x2 x3 x4 x8 x9 x10 x11) (val_main_v44 (F := Ideal) x0 x1 x2 x3 x4 x8 x9 x10 x11)
          (val_main_v60 (F := Ideal) x1) x5 x7 x6 x12 x13 x14 x15 := rfl

/-- The reference's aggregation of the first layer's output is the shared one. -/
theorem v54_eq (x0 : Rows) (x1 : EdgeList) (x2 : Mat) (x3 : Vec) (x4 : Mat) (x8 x9 x10 x11 : Vec) :
    val_main_v54 (F := Ideal) x0 x1 x2 x3 x4 x8 x9 x10 x11
      = K.agg (val_main_v44 (F := Ideal) x0 x1 x2 x3 x4 x8 x9 x10 x11) x1 := rfl

theorem v60_eq (x1 : EdgeList) : val_main_v60 (F := Ideal) x1 = maximumf (K.cnt x1) ones := rfl

/-- The reference's second layer is the shared layer over the first layer's output. -/
theorem ref_layer2 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 x11 x12 x13 x14 x15 : (⟨S128, .f32⟩ : BufTy).Contents (Elt Ideal)) :
    val_main_v85 (F := Ideal) x0 x1 x2 x3 x4 x5 x6 x7 x8 x9 x10 x11 x12 x13 x14 x15
      = layerMul (K.agg (val_main_v44 (F := Ideal) x0 x1 x2 x3 x4 x8 x9 x10 x11) x1)
          (val_main_v44 (F := Ideal) x0 x1 x2 x3 x4 x8 x9 x10 x11) (K.inv x1) (K.wT x5) (K.wT x7) (K.row x6)
          (K.row (K.scale x12 x15)) (K.row x13) (K.row x14) := by
  rw [v85_eq, v54_eq, v60_eq]
  exact refLayer_eq (K.agg (val_main_v44 (F := Ideal) x0 x1 x2 x3 x4 x8 x9 x10 x11) x1)
    (val_main_v44 (F := Ideal) x0 x1 x2 x3 x4 x8 x9 x10 x11) (K.cnt x1) x5 x7 x6 x12 x13 x14 x15

end Cert.Sage.Ref

end
-- ==== Proof.RefNetwork.lean ====
/-
  The reference program's result is the network: its classifier over its second layer, the second layer a
  layer over the first layer's output, the first layer a layer over the node features.
-/
import proofs.«161813_j51161650430634_2_alg».proof.Proof.RefHead
import proofs.«161813_j51161650430634_2_alg».proof.Proof.RefLayers

noncomputable section

namespace Cert.Sage.Ref

open Idealize.ShloMosaic Cert.ReferenceIdeal Cert.ReferenceIdeal.Read Cert.Sage

/-- The reference's result, as a function of its arguments, is the network. -/
theorem ref_network (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S2x128, .f32⟩ : BufTy).Contents (Elt Ideal)) (x17 : (⟨S2, .f32⟩ : BufTy).Contents (Elt Ideal)) :
    val_main_v90 (F := Ideal) x0 x1 x2 x3 x4 x5 x6 x7 x8 x9 x10 x11 x12 x13 x14 x15 x16 x17 = K.network x0 x1 x2 x3 x4 x5 x6 x7 x8 x9 x10 x11 x12 x13 x14 x15 x16 x17 := by
  rw [ref_head, ref_layer2, ref_hidden]
  rfl

end Cert.Sage.Ref

end
-- ==== Proof.lean ====
/-
  A two-layer mean-aggregation graph network with a linear classifier, as a Pallas program (two pallas_calls
  among host operations) against a plain jnp reference: the certificate.

  Each layer gathers every edge's source row, adds it into the edge's destination row, divides a node's sum
  by the number of edges arriving at it (by 1 for an isolated node), multiplies the mean by one weight matrix
  and the node's own row by another, adds a bias, normalises with running statistics and rectifies; the
  classifier is one more matrix product and a bias.  The Pallas program keeps the gathers and scatter-adds on
  the host and runs the dense part of each layer block by block, 2000 node rows at a time, multiplying by the
  reciprocal of the count where the reference divides by the count, and adding the bias after the second
  product where the reference adds it before.

  At the ideal values — floats extended reals, every operation exact, a change of float format the identity —
  both programs compute one function of the arguments, `Cert.Sage.K.network`: the divisor max(count, 1) is at
  least 1, so dividing by it IS multiplying by its reciprocal for every extended real dividend, and the sum of
  three terms does not depend on their order.  No finiteness of the inputs is used.

  The three frames: the two Pallas programs' are the frame certificates of their two regions; the reference's
  is its run with the result dropped.  The idealized program is the printed program read at the ideal values
  (the ideal pass rewrote nothing), so `preserves` has nothing to state.
-/
import proofs.«161813_j51161650430634_2_alg».proof.Defs
import proofs.«161813_j51161650430634_2_alg».proof.Proof.Gen.Kernel
import proofs.«161813_j51161650430634_2_alg».proof.Proof.Gen.Kernel.Skeleton
import proofs.«161813_j51161650430634_2_alg».proof.Proof.Gen.Kernel.Launch
import proofs.«161813_j51161650430634_2_alg».proof.Proof.Gen.Kernel.Points
import proofs.«161813_j51161650430634_2_alg».proof.Proof.Gen.Kernel.Frame
import proofs.«161813_j51161650430634_2_alg».proof.Proof.Gen.KernelIdeal
import proofs.«161813_j51161650430634_2_alg».proof.Proof.Gen.KernelIdeal.Skeleton
import proofs.«161813_j51161650430634_2_alg».proof.Proof.Gen.KernelIdeal.Launch
import proofs.«161813_j51161650430634_2_alg».proof.Proof.Gen.KernelIdeal.Points
import proofs.«161813_j51161650430634_2_alg».proof.Proof.Gen.KernelIdeal.Frame
import proofs.«161813_j51161650430634_2_alg».proof.Proof.Gen.ReferenceIdeal
import proofs.«161813_j51161650430634_2_alg».proof.Proof.Gen.Pre_finite_inputs
import proofs.«161813_j51161650430634_2_alg».proof.Proof.Gen.ReferenceIdeal.Run
import proofs.«161813_j51161650430634_2_alg».proof.Proof.Gen.ReferenceIdeal.Read
import proofs.«161813_j51161650430634_2_alg».proof.Proof.RunNamed
import proofs.«161813_j51161650430634_2_alg».proof.Proof.KernelValue
import proofs.«161813_j51161650430634_2_alg».proof.Proof.RefNetwork
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The Pallas program, at the ideal values, ends with the network of its arguments in its result. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v64)
        = Cert.Sage.K.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run Cert.KernelIdeal.defs _ _).mono
    (fun _ h c => ⟨(h c).1.trans (Cert.Sage.KernelValue.result_eq m ρ c), (h c).2⟩)
    (Cert.Sage.Run.run_named (F := Ideal) m ρ)

/-- The reference, at the ideal values, ends with the network of its arguments in its result. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v90)
        = Cert.Sage.K.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run Cert.ReferenceIdeal.defs _ _).mono
    (fun _ h c => ⟨(h c).1.trans ((Cert.ReferenceIdeal.Read.val_main_v90_eq (F := Ideal) m' c).trans
        (Cert.Sage.Ref.ref_network _ _ _ _ _ _ _ _ _ _ _ _ _ _ _ _ _ _)), (h c).2⟩)
    (Cert.ReferenceIdeal.Value.run (F := Ideal) m' ρ')

/-- From memories agreeing on the arguments both programs end with the same network of the same arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (reference_run m' ρ')
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
